-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x512 : Shape := ⟨3, ![64, 1024, 512]⟩
abbrev S512x80 : Shape := ⟨2, ![512, 80]⟩
abbrev S80 : Shape := ⟨1, ![80]⟩
abbrev S1x512x64 : Shape := ⟨3, ![1, 512, 64]⟩
abbrev S_ : Shape := ⟨0, ![]⟩

class Facts : Prop where
  bcast_S_S64x1024x512 : S_.BroadcastsInDim S64x1024x512 (![] : Fin 0 → Fin S64x1024x512.rank)
  reducesTo_S64x1024x512_S_d0_1_2 : S64x1024x512.ReducesTo [0, 1, 2] S_
  h_S_ : 0 < S_.numel
  bcast_S_S512x80 : S_.BroadcastsInDim S512x80 (![] : Fin 0 → Fin S512x80.rank)
  reducesTo_S512x80_S_d0_1 : S512x80.ReducesTo [0, 1] S_
  bcast_S_S80 : S_.BroadcastsInDim S80 (![] : Fin 0 → Fin S80.rank)
  reducesTo_S80_S_d0 : S80.ReducesTo [0] S_
  bcast_S_S1x512x64 : S_.BroadcastsInDim S1x512x64 (![] : Fin 0 → Fin S1x512x64.rank)
  reducesTo_S1x512x64_S_d0_1_2 : S1x512x64.ReducesTo [0, 1, 2] S_

variable [Facts]

def fn_part1 {F : FTy → Type} [FloatOps F] (main_arg4 : FVec F S80 .f32) (main_arg5 : FVec F S80 .f32) (main_arg6 : FVec F S1x512x64 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  let main_v24 : FVec F S80 .f32 := Host.absf main_arg5
  let main_cst_8 : FVec F S_ .f32 := constant S_ .f32 0x7F800000#32
  let main_v25 : FVec F S80 .f32 := broadcastInDim S80 ![] bcast_S_S80 main_cst_8
  let main_v26 : IVec S80 1 := cmpf .olt main_v24 main_v25
  let main_c_9 : IVec S_ 1 := constantI S_ 1 1#1
  let main_v27 : IVec S_ 1 := (fun x v => Host.reduce IntOp.andi x v reducesTo_S80_S_d0 h_S_) main_v26 main_c_9
  let main_v28 : IVec S_ 1 := andi main_v23 main_v27
  let main_v29 : FVec F S1x512x64 .f32 := Host.absf main_arg6
  let main_cst_10 : FVec F S_ .f32 := constant S_ .f32 0x7F800000#32
  let main_v30 : FVec F S1x512x64 .f32 := broadcastInDim S1x512x64 ![] bcast_S_S1x512x64 main_cst_10
  let main_v31 : IVec S1x512x64 1 := cmpf .olt main_v29 main_v30
  let main_c_11 : IVec S_ 1 := constantI S_ 1 1#1
  let main_v32 : IVec S_ 1 := (fun x v => Host.reduce IntOp.andi x v reducesTo_S1x512x64_S_d0_1_2 h_S_) main_v31 main_c_11
  let main_v33 : IVec S_ 1 := andi main_v28 main_v32
  main_v33

def fn {F : FTy → Type} [FloatOps F] (main_arg0 : FVec F S64x1024x512 .f32) (main_arg1 : FVec F S512x80 .f32) (main_arg2 : FVec F S80 .f32) (main_arg3 : FVec F S80 .f32) (main_arg4 : FVec F S80 .f32) (main_arg5 : FVec F S80 .f32) (main_arg6 : FVec F S1x512x64 .f32) : IVec S_ 1 :=
  let main_v0 : FVec F S64x1024x512 .f32 := Host.absf main_arg0
  let main_cst : FVec F S_ .f32 := constant S_ .f32 0x7F800000#32
  let main_v1 : FVec F S64x1024x512 .f32 := broadcastInDim S64x1024x512 ![] bcast_S_S64x1024x512 main_cst
  let main_v2 : IVec S64x1024x512 1 := cmpf .olt main_v0 main_v1
  let main_c : IVec S_ 1 := constantI S_ 1 1#1
  let main_v3 : IVec S_ 1 := (fun x v => Host.reduce IntOp.andi x v reducesTo_S64x1024x512_S_d0_1_2 h_S_) main_v2 main_c
  let main_v4 : FVec F S512x80 .f32 := Host.absf main_arg1
  let main_cst_0 : FVec F S_ .f32 := constant S_ .f32 0x7F800000#32
  let main_v5 : FVec F S512x80 .f32 := broadcastInDim S512x80 ![] bcast_S_S512x80 main_cst_0
  let main_v6 : IVec S512x80 1 := cmpf .olt main_v4 main_v5
  let main_c_1 : IVec S_ 1 := constantI S_ 1 1#1
  let main_v7 : IVec S_ 1 := (fun x v => Host.reduce IntOp.andi x v reducesTo_S512x80_S_d0_1 h_S_) main_v6 main_c_1
  let main_v8 : IVec S_ 1 := andi main_v3 main_v7
  let main_v9 : FVec F S80 .f32 := Host.absf main_arg2
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg4 main_arg5 main_arg6 main_v13 main_v16
-- ==== Kernel.lean ====
abbrev S64x1024x512 : Shape := ⟨3, ![64, 1024, 512]⟩
abbrev S512x80 : Shape := ⟨2, ![512, 80]⟩
abbrev S80 : Shape := ⟨1, ![80]⟩
abbrev S1x512x64 : Shape := ⟨3, ![1, 512, 64]⟩
abbrev S_ : Shape := ⟨0, ![]⟩
abbrev S512x64 : Shape := ⟨2, ![512, 64]⟩
abbrev S64 : Shape := ⟨1, ![64]⟩
abbrev S1x64 : Shape := ⟨2, ![1, 64]⟩
abbrev S64x512 : Shape := ⟨2, ![64, 512]⟩
abbrev S64x64x512 : Shape := ⟨3, ![64, 64, 512]⟩
abbrev S4x1024x512 : Shape := ⟨3, ![4, 1024, 512]⟩
abbrev S4x64x512 : Shape := ⟨3, ![4, 64, 512]⟩
abbrev S1x1024x512 : Shape := ⟨3, ![1, 1024, 512]⟩
abbrev S1024x512 : Shape := ⟨2, ![1024, 512]⟩
abbrev S1024x64 : Shape := ⟨2, ![1024, 64]⟩
abbrev S1024 : Shape := ⟨1, ![1024]⟩
abbrev S1024x1 : Shape := ⟨2, ![1024, 1]⟩
abbrev S64x1 : Shape := ⟨2, ![64, 1]⟩
abbrev S1x64x512 : Shape := ⟨3, ![1, 64, 512]⟩
abbrev S1 : Shape := ⟨1, ![1]⟩
abbrev S1x1x1 : Shape := ⟨3, ![1, 1, 1]⟩
abbrev S1x1 : Shape := ⟨2, ![1, 1]⟩
abbrev S64x512x64 : Shape := ⟨3, ![64, 512, 64]⟩
abbrev S64x32768 : Shape := ⟨2, ![64, 32768]⟩

abbrev nBuf : Space → Nat
  | .hbm => 22
  | .vmem => 6
  | .smem => 0
  | _ => 0

abbrev bufTy : (tb : Table) → Fin (tcTables nBuf tb) → BufTy
  | .hbm, ⟨0, _⟩ => ⟨S64x1024x512, .f32⟩
  | .hbm, ⟨1, _⟩ => ⟨S512x80, .f32⟩
  | .hbm, ⟨2, _⟩ => ⟨S80, .f32⟩
  | .hbm, ⟨3, _⟩ => ⟨S80, .f32⟩
  | .hbm, ⟨4, _⟩ => ⟨S80, .f32⟩
  | .hbm, ⟨5, _⟩ => ⟨S80, .f32⟩
  | .hbm, ⟨6, _⟩ => ⟨S1x512x64, .f32⟩
  | .hbm, ⟨7, _⟩ => ⟨S_, .f32⟩
  | .hbm, ⟨8, _⟩ => ⟨S80, .f32⟩
  | .hbm, ⟨9, _⟩ => ⟨S80, .f32⟩
  | .hbm, ⟨10, _⟩ => ⟨S80, .f32⟩
  | .hbm, ⟨11, _⟩ => ⟨S80, .f32⟩
  | .hbm, ⟨12, _⟩ => ⟨S512x64, .f32⟩
  | .hbm, ⟨13, _⟩ => ⟨S64, .f32⟩
  | .hbm, ⟨14, _⟩ => ⟨S1x64, .f32⟩
  | .hbm, ⟨15, _⟩ => ⟨S512x64, .f32⟩
  | .hbm, ⟨16, _⟩ => ⟨S512x64, .f32⟩
  | .hbm, ⟨17, _⟩ => ⟨S512x64, .f32⟩
  | .hbm, ⟨18, _⟩ => ⟨S64x512, .f32⟩
  | .hbm, ⟨19, _⟩ => ⟨S64x64x512, .f32⟩
  | .hbm, ⟨20, _⟩ => ⟨S64x512x64, .f32⟩
  | .hbm, ⟨21, _⟩ => ⟨S64x32768, .f32⟩
  | .local _ .vmem, ⟨0, _⟩ => ⟨S4x1024x512, .f32⟩
  | .local _ .vmem, ⟨1, _⟩ => ⟨S4x1024x512, .f32⟩
  | .local _ .vmem, ⟨2, _⟩ => ⟨S512x64, .f32⟩
  | .local _ .vmem, ⟨3, _⟩ => ⟨S64x512, .f32⟩
  | .local _ .vmem, ⟨4, _⟩ => ⟨S4x64x512, .f32⟩
  | .local _ .vmem, ⟨5, _⟩ => ⟨S4x64x512, .f32⟩
  | _, _ => ⟨S64x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S80 : S_.BroadcastsInDim S80 (![] : Fin 0 → Fin S80.rank)
  slices_S512x80_S512x64_0_0 : S512x80.Slices ![0, 0] S512x64
  slices_S80_S64_0 : S80.Slices ![0] S64
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  shapeCasts_S1x512x64_S512x64 : S1x512x64.ShapeCasts S512x64
  transposes_S512x64_S64x512_1_0 : S512x64.Transposes [1, 0] S64x512
  inb_S512x64_S512x64_0_0 : ∀ a, (![0, 0] : Fin 2 → Nat) a + S512x64.size a ≤ S512x64.size a
  h_S512x64 : 0 < S512x64.numel
  shapeCasts_S512x64_S512x64 : S512x64.ShapeCasts S512x64
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S4x1024x512_S1x1024x512_0_0_0 : ∀ a, (![0, 0, 0] : Fin 3 → Nat) a + S1x1024x512.size a ≤ S4x1024x512.size a
  h_S1x1024x512 : 0 < S1x1024x512.numel
  shapeCasts_S1x1024x512_S1024x512 : S1x1024x512.ShapeCasts S1024x512
  reduces_S1024x64_S1024 : S1024x64.Reduces [1] S1024
  shapeCasts_S1024_S1024x1 : S1024.ShapeCasts S1024x1
  broadcasts_S1024x1_S1024x64 : S1024x1.Broadcasts S1024x64
  reduces_S1024x64_S64 : S1024x64.Reduces [0] S64
  shapeCasts_S64_S1x64 : S64.ShapeCasts S1x64
  shapeCasts_S1x64_S64x1 : S1x64.ShapeCasts S64x1
  broadcasts_S64x1_S64x512 : S64x1.Broadcasts S64x512
  reduces_S64x512_S64 : S64x512.Reduces [1] S64
  shapeCasts_S64_S64x1 : S64.ShapeCasts S64x1
  shapeCasts_S64x512_S1x64x512 : S64x512.ShapeCasts S1x64x512
  reduces_S1x64x512_S1 : S1x64x512.Reduces [1, 2] S1
  shapeCasts_S1_S1x1x1 : S1.ShapeCasts S1x1x1
  inpos_S1x1x1_p0_0_0 : ∀ a, (![0, 0, 0] : Fin 3 → Nat) a < S1x1x1.size a
  broadcasts_S1x1_S64x512 : S1x1.Broadcasts S64x512
  inb_S4x64x512_S1x64x512_0_0_0 : ∀ a, (![0, 0, 0] : Fin 3 → Nat) a + S1x64x512.size a ≤ S4x64x512.size a
  h_S1x64x512 : 0 < S1x64x512.numel
  shapeCasts_S1x64x512_S64x512 : S1x64x512.ShapeCasts S64x512
  inb_S4x1024x512_S1x1024x512_1_0_0 : ∀ a, (![1, 0, 0] : Fin 3 → Nat) a + S1x1024x512.size a ≤ S4x1024x512.size a
  inb_S4x64x512_S1x64x512_1_0_0 : ∀ a, (![1, 0, 0] : Fin 3 → Nat) a + S1x64x512.size a ≤ S4x64x512.size a
  inb_S4x1024x512_S1x1024x512_2_0_0 : ∀ a, (![2, 0, 0] : Fin 3 → Nat) a + S1x1024x512.size a ≤ S4x1024x512.size a
  inb_S4x64x512_S1x64x512_2_0_0 : ∀ a, (![2, 0, 0] : Fin 3 → Nat) a + S1x64x512.size a ≤ S4x64x512.size a
  inb_S4x1024x512_S1x1024x512_3_0_0 : ∀ a, (![3, 0, 0] : Fin 3 → Nat) a + S1x1024x512.size a ≤ S4x1024x512.size a
  inb_S4x64x512_S1x64x512_3_0_0 : ∀ a, (![3, 0, 0] : Fin 3 → Nat) a + S1x64x512.size a ≤ S4x64x512.size a
  transposes_S64x64x512_S64x512x64_0_2_1 : S64x64x512.Transposes [0, 2, 1] S64x512x64
  shapeCasts_S64x512x64_S64x32768 : S64x512x64.ShapeCasts S64x32768
  dot_S1024x512_S512x64_S1024x64_1_0_0_1_n_n_wf : DotDims.WF S1024x512 S512x64 S1024x64 [1] [0] [0] [1] [] []
  dot_S1024x64_S1024x512_S64x512_0_0_1_1_n_n_wf : DotDims.WF S1024x64 S1024x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S64x1024x512.size a
  hwx0_0 : ∀ i : grid0.Coords, EltTy.bits .f32 = 32 ∨ (Rect.block (s := S64x1024x512) S4x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x64x512.size a ≤ S64x64x512.size a
  hwx0_3 : ∀ i : grid0.Coords, EltTy.bits .f32 = 32 ∨ (Rect.block (s := S64x64x512) S4x64x512.size (cc0_transform_3 i) (hinb0_3 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x64_S1024x512_S64x512_0_0_1_1_n_n : DotDims S1024x64 S1024x512 S64x512 where
  lhsContracting := [0]
  rhsContracting := [0]
  lhsNonContracting := [1]
  rhsNonContracting := [1]
  lhsBatch := []
  rhsBatch := []
  wf := dot_S1024x64_S1024x512_S64x512_0_0_1_1_n_n_wf

abbrev win0_0 : Pipeline.Window sig grid0 :=
  Pipeline.Window.ofSpec (Memref.whole main_arg0) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S4x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x512 : Shape := ⟨3, ![64, 1024, 512]⟩
abbrev S512x80 : Shape := ⟨2, ![512, 80]⟩
abbrev S80 : Shape := ⟨1, ![80]⟩
abbrev S1x512x64 : Shape := ⟨3, ![1, 512, 64]⟩
abbrev S_ : Shape := ⟨0, ![]⟩
abbrev S65536x512 : Shape := ⟨2, ![65536, 512]⟩
abbrev S1x80 : Shape := ⟨2, ![1, 80]⟩
abbrev S65536x80 : Shape := ⟨2, ![65536, 80]⟩
abbrev S65536x64 : Shape := ⟨2, ![65536, 64]⟩
abbrev S65536 : Shape := ⟨1, ![65536]⟩
abbrev S65536x1 : Shape := ⟨2, ![65536, 1]⟩
abbrev S64x1024x64 : Shape := ⟨3, ![64, 1024, 64]⟩
abbrev S64x64 : Shape := ⟨2, ![64, 64]⟩
abbrev S64x512x64 : Shape := ⟨3, ![64, 512, 64]⟩
abbrev S64x1x64 : Shape := ⟨3, ![64, 1, 64]⟩
abbrev S512x64 : Shape := ⟨2, ![512, 64]⟩
abbrev S64x32768 : Shape := ⟨2, ![64, 32768]⟩
abbrev S64 : Shape := ⟨1, ![64]⟩
abbrev S64x1 : Shape := ⟨2, ![64, 1]⟩

abbrev nBuf : Space → Nat
  | .hbm => 64
  | .vmem => 0
  | .smem => 0
  | _ => 0

abbrev bufTy : (tb : Table) → Fin (tcTables nBuf tb) → BufTy
  | .hbm, ⟨0, _⟩ => ⟨S64x1024x512, .f32⟩
  | .hbm, ⟨1, _⟩ => ⟨S512x80, .f32⟩
  | .hbm, ⟨2, _⟩ => ⟨S80, .f32⟩
  | .hbm, ⟨3, _⟩ => ⟨S80, .f32⟩
  | .hbm, ⟨4, _⟩ => ⟨S80, .f32⟩
  | .hbm, ⟨5, _⟩ => ⟨S80, .f32⟩
  | .hbm, ⟨6, _⟩ => ⟨S1x512x64, .f32⟩
  | .hbm, ⟨7, _⟩ => ⟨S_, .f32⟩
  | .hbm, ⟨8, _⟩ => ⟨S80, .f32⟩
  | .hbm, ⟨9, _⟩ => ⟨S80, .f32⟩
  | .hbm, ⟨10, _⟩ => ⟨S80, .f32⟩
  | .hbm, ⟨11, _⟩ => ⟨S80, .f32⟩
  | .hbm, ⟨12, _⟩ => ⟨S65536x512, .f32⟩
  | .hbm, ⟨13, _⟩ => ⟨S1x80, .f32⟩
  | .hbm, ⟨14, _⟩ => ⟨S512x80, .f32⟩
  | .hbm, ⟨15, _⟩ => ⟨S512x80, .f32⟩
  | .hbm, ⟨16, _⟩ => ⟨S65536x80, .f32⟩
  | .hbm, ⟨17, _⟩ => ⟨S65536x64, .f32⟩
  | .hbm, ⟨18, _⟩ => ⟨S_, .f32⟩
  | .hbm, ⟨19, _⟩ => ⟨S65536, .f32⟩
  | .hbm, ⟨20, _⟩ => ⟨S_, .f32⟩
  | .hbm, ⟨21, _⟩ => ⟨S65536, .f32⟩
  | .hbm, ⟨22, _⟩ => ⟨S65536, .f32⟩
  | .hbm, ⟨23, _⟩ => ⟨S65536x1, .f32⟩
  | .hbm, ⟨24, _⟩ => ⟨S65536x64, .f32⟩
  | .hbm, ⟨25, _⟩ => ⟨S65536x64, .f32⟩
  | .hbm, ⟨26, _⟩ => ⟨S65536x64, .f32⟩
  | .hbm, ⟨27, _⟩ => ⟨S_, .f32⟩
  | .hbm, ⟨28, _⟩ => ⟨S65536, .f32⟩
  | .hbm, ⟨29, _⟩ => ⟨S65536x1, .f32⟩
  | .hbm, ⟨30, _⟩ => ⟨S65536x64, .f32⟩
  | .hbm, ⟨31, _⟩ => ⟨S65536x64, .f32⟩
  | .hbm, ⟨32, _⟩ => ⟨S64x1024x64, .f32⟩
  | .hbm, ⟨33, _⟩ => ⟨S_, .f32⟩
  | .hbm, ⟨34, _⟩ => ⟨S64x64, .f32⟩
  | .hbm, ⟨35, _⟩ => ⟨S64x512x64, .f32⟩
  | .hbm, ⟨36, _⟩ => ⟨S64x1x64, .f32⟩
  | .hbm, ⟨37, _⟩ => ⟨S512x64, .f32⟩
  | .hbm, ⟨38, _⟩ => ⟨S1x512x64, .f32⟩
  | .hbm, ⟨39, _⟩ => ⟨S64x512x64, .f32⟩
  | .hbm, ⟨40, _⟩ => ⟨S64x512x64, .f32⟩
  | .hbm, ⟨41, _⟩ => ⟨S64x512x64, .f32⟩
  | .hbm, ⟨42, _⟩ => ⟨S64x512x64, .f32⟩
  | .hbm, ⟨43, _⟩ => ⟨S64x512x64, .f32⟩
  | .hbm, ⟨44, _⟩ => ⟨S_, .f32⟩
  | .hbm, ⟨45, _⟩ => ⟨S64x64, .f32⟩
  | .hbm, ⟨46, _⟩ => ⟨S64x1x64, .f32⟩
  | .hbm, ⟨47, _⟩ => ⟨S64x1x64, .f32⟩
  | .hbm, ⟨48, _⟩ => ⟨S_, .f32⟩
  | .hbm, ⟨49, _⟩ => ⟨S64x1x64, .f32⟩
  | .hbm, ⟨50, _⟩ => ⟨S64x1x64, .f32⟩
  | .hbm, ⟨51, _⟩ => ⟨S64x512x64, .f32⟩
  | .hbm, ⟨52, _⟩ => ⟨S64x512x64, .f32⟩
  | .hbm, ⟨53, _⟩ => ⟨S64x32768, .f32⟩
  | .hbm, ⟨54, _⟩ => ⟨S64x32768, .f32⟩
  | .hbm, ⟨55, _⟩ => ⟨S_, .f32⟩
  | .hbm, ⟨56, _⟩ => ⟨S64, .f32⟩
  | .hbm, ⟨57, _⟩ => ⟨S64x1, .f32⟩
  | .hbm, ⟨58, _⟩ => ⟨S64x1, .f32⟩
  | .hbm, ⟨59, _⟩ => ⟨S_, .f32⟩
  | .hbm, ⟨60, _⟩ => ⟨S64x1, .f32⟩
  | .hbm, ⟨61, _⟩ => ⟨S64x1, .f32⟩
  | .hbm, ⟨62, _⟩ => ⟨S64x32768, .f32⟩
  | .hbm, ⟨63, _⟩ => ⟨S64x32768, .f32⟩
  | _, _ => ⟨S64x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  bcast_S_S80 : S_.BroadcastsInDim S80 (![] : Fin 0 → Fin S80.rank)
  shapeCasts_S64x1024x512_S65536x512 : S64x1024x512.ShapeCasts S65536x512
  bcast_S80_S1x80_1 : S80.BroadcastsInDim S1x80 (![1] : Fin 1 → Fin S1x80.rank)
  bcast_S1x80_S512x80_0_1 : S1x80.BroadcastsInDim S512x80 (![0, 1] : Fin 2 → Fin S512x80.rank)
  slices_S65536x80_S65536x64_0_0 : S65536x80.Slices ![0, 0] S65536x64
  reducesTo_S65536x64_S65536_d1 : S65536x64.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x64_S64x1024x64 : S65536x64.ShapeCasts S64x1024x64
  reducesTo_S64x1024x64_S64x64_d1 : S64x1024x64.ReducesTo [1] S64x64
  bcast_S64x64_S64x1x64_0_2 : S64x64.BroadcastsInDim S64x1x64 (![0, 2] : Fin 2 → Fin S64x1x64.rank)
  shapeCasts_S1x512x64_S512x64 : S1x512x64.ShapeCasts S512x64
  bcast_S512x64_S1x512x64_1_2 : S512x64.BroadcastsInDim S1x512x64 (![1, 2] : Fin 2 → Fin S1x512x64.rank)
  bcast_S64x1x64_S64x512x64_0_1_2 : S64x1x64.BroadcastsInDim S64x512x64 (![0, 1, 2] : Fin 3 → Fin S64x512x64.rank)
  bcast_S1x512x64_S64x512x64_0_1_2 : S1x512x64.BroadcastsInDim S64x512x64 (![0, 1, 2] : Fin 3 → Fin S64x512x64.rank)
  reducesTo_S64x512x64_S64x64_d1 : S64x512x64.ReducesTo [1] S64x64
  bcast_S_S64x1x64 : S_.BroadcastsInDim S64x1x64 (![] : Fin 0 → Fin S64x1x64.rank)
  shapeCasts_S64x512x64_S64x32768 : S64x512x64.ShapeCasts S64x32768
  reducesTo_S64x32768_S64_d1 : S64x32768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32768_0_1 : S64x1.BroadcastsInDim S64x32768 (![0, 1] : Fin 2 → Fin S64x32768.rank)
  dot_S65536x512_S512x80_S65536x80_1_0_0_1_n_n_wf : DotDims.WF S65536x512 S512x80 S65536x80 [1] [0] [0] [1] [] []
  dot_S64x1024x512_S64x1024x64_S64x512x64_1_1_2_2_0_0_wf : DotDims.WF S64x1024x512 S64x1024x64 S64x512x64 [1] [1] [2] [2] [0] [0]

variable [Facts₀]

def dot_S65536x512_S512x80_S65536x80_1_0_0_1_n_n : DotDims S65536x512 S512x80 S65536x80 where
  lhsContracting := [1]
  rhsContracting := [0]
  lhsNonContracting := [0]
  rhsNonContracting := [1]
  lhsBatch := []
  rhsBatch := []
  wf := dot_S65536x512_S512x80_S65536x80_1_0_0_1_n_n_wf
def dot_S64x1024x512_S64x1024x64_S64x512x64_1_1_2_2_0_0 : DotDims S64x1024x512 S64x1024x64 S64x512x64 where
  lhsContracting := [1]
  rhsContracting := [1]
  lhsNonContracting := [2]
  rhsNonContracting := [2]
  lhsBatch := [0]
  rhsBatch := [0]
  wf := dot_S64x1024x512_S64x1024x64_S64x512x64_1_1_2_2_0_0_wf

class Facts : Prop extends Facts₀ where

variable [Facts]
-- ==== Proof.Stages.lean ====
/-
  The kernel body's arithmetic for one batch, cut into its natural stages, each a function of whole vectors:
  the logits (a matrix product), the softmax over a row, the mass and the weighted sum of descriptors per cluster,
  the residual to the centre, the normalisation within a cluster, and the norm of the whole table.
  The body repeats this text once per batch of its block; each repetition is this composition.
-/
import proofs.«123267_j36215164240269_2_alg».proof.Proof.Gen.KernelIdeal.Skeleton
import Idealize.ShloMosaic.PureOps.Ideal

noncomputable section

namespace Cert.KernelIdeal.Stages

open Idealize.ShloMosaic Idealize.SL.Sem Cert.KernelIdeal Cert.KernelIdeal.Gen

/-- A batch's descriptors as the matrix unit takes them: the leading unit axis dropped (the change of format is the identity). -/
def castX (x : Vec Ideal S1x1024x512 .f32) : FVec Ideal S1024x512 .bf16 :=
  truncf .bf16 (shapeCast S1024x512 x shapeCasts_S1x1024x512_S1024x512) bitsLt_bf16_f32

/-- The logits: descriptors times cluster directions. -/
def logitsV (v7 : FVec Ideal S1024x512 .bf16) (v2 : FVec Ideal S512x64 .bf16) : FVec Ideal S1024x64 .f32 :=
  matmul dot_S1024x512_S512x64_S1024x64_1_0_0_1_n_n none v7 v2 (constant S1024x64 .f32 0x00000000#32)

/-- Each row's maximum, repeated along the row. -/
def rowMaxV (L : FVec Ideal S1024x64 .f32) : FVec Ideal S1024x64 .f32 :=
  broadcastTo S1024x64 (shapeCast S1024x1 (multiReduction .maximumf [1] S1024 L 0xFF800000#32 reduces_S1024x64_S1024 (.inl rfl) rfl)
    shapeCasts_S1024_S1024x1) broadcasts_S1024x1_S1024x64

/-- The exponentials of the logits less their row's maximum. -/
def expV (L : FVec Ideal S1024x64 .f32) : FVec Ideal S1024x64 .f32 := exp (subf L (rowMaxV L))

/-- Each row's sum, repeated along the row. -/
def rowSumV (P : FVec Ideal S1024x64 .f32) : FVec Ideal S1024x64 .f32 :=
  broadcastTo S1024x64 (shapeCast S1024x1 (multiReduction .add [1] S1024 P 0x00000000#32 reduces_S1024x64_S1024 (.inl rfl) rfl)
    shapeCasts_S1024_S1024x1) broadcasts_S1024x1_S1024x64

/-- The soft assignment: the softmax of each row of logits. -/
def assignV (L : FVec Ideal S1024x64 .f32) : FVec Ideal S1024x64 .f32 := divf (expV L) (rowSumV (expV L))

/-- The mass assigned to each cluster, repeated along the cluster's row of the table. -/
def massV (A : FVec Ideal S1024x64 .f32) : FVec Ideal S64x512 .f32 :=
  broadcastTo S64x512 (shapeCast S64x1 (shapeCast S1x64 (multiReduction .add [0] S64 A 0x00000000#32 reduces_S1024x64_S64 (.inl rfl) rfl)
    shapeCasts_S64_S1x64) shapeCasts_S1x64_S64x1) broadcasts_S64x1_S64x512

/-- The assignment-weighted sums of the descriptors: the assignment's transpose times the descriptors. -/
def gatherV (A : FVec Ideal S1024x64 .f32) (v7 : FVec Ideal S1024x512 .bf16) : FVec Ideal S64x512 .f32 :=
  matmul dot_S1024x64_S1024x512_S64x512_0_0_1_1_n_n none (truncf .bf16 A bitsLt_bf16_f32) v7 (constant S64x512 .f32 0x00000000#32)

/-- The residuals to the centres. -/
def residV (A : FVec Ideal S1024x64 .f32) (v7 : FVec Ideal S1024x512 .bf16) (v4 : FVec Ideal S64x512 .f32) : FVec Ideal S64x512 .f32 :=
  subf (gatherV A v7) (mulf (massV A) v4)

/-- Each cluster's residual norm, floored, repeated along the cluster's row. -/
def floorV (R : FVec Ideal S64x512 .f32) : FVec Ideal S64x512 .f32 :=
  broadcastTo S64x512 (maximumf (sqrt (shapeCast S64x1 (multiReduction .add [1] S64 (mulf R R) 0x00000000#32 reduces_S64x512_S64 (.inl rfl) rfl)
    shapeCasts_S64_S64x1)) (broadcast S64x1 (Scalar.ofBits .f32 0x2B8CBCCC#32))) broadcasts_S64x1_S64x512

/-- The residuals normalised within their clusters. -/
def intraV (R : FVec Ideal S64x512 .f32) : FVec Ideal S64x512 .f32 := divf R (floorV R)

/-- The norm of a whole table, floored: a one-entry array. -/
def gnormV (U : FVec Ideal S64x512 .f32) : FVec Ideal S1x1 .f32 :=
  maximumf (sqrt (broadcast S1x1 (extractAt ![0, 0, 0] (shapeCast S1x1x1 (multiReduction .add [1, 2] S1
    (shapeCast S1x64x512 (mulf U U) shapeCasts_S64x512_S1x64x512) 0x00000000#32 reduces_S1x64x512_S1 (.inl rfl) rfl) shapeCasts_S1_S1x1x1)
    inpos_S1x1x1_p0_0_0))) (broadcast S1x1 (Scalar.ofBits .f32 0x2B8CBCCC#32))

/-- The table normalised within clusters, of one batch. -/
def tableV (v2 : FVec Ideal S512x64 .bf16) (v4 : FVec Ideal S64x512 .f32) (x : Vec Ideal S1x1024x512 .f32) : FVec Ideal S64x512 .f32 :=
  intraV (residV (assignV (logitsV (castX x) v2)) (castX x) v4)

/-- What the body stores for one batch: the table over its floored norm, with a leading unit axis. -/
def storedV (v2 : FVec Ideal S512x64 .bf16) (v4 : FVec Ideal S64x512 .f32) (x : Vec Ideal S1x1024x512 .f32) : FVec Ideal S1x64x512 .f32 :=
  shapeCast S1x64x512 (divf (tableV v2 v4 x) (broadcastTo S64x512 (gnormV (tableV v2 v4 x)) broadcasts_S1x1_S64x512)) shapeCasts_S64x512_S1x64x512

/-! The body's four repetitions are this composition (the printed text, regrouped). -/

theorem pay_batch1 (v2 : FVec Ideal S512x64 .bf16) (v4 : FVec Ideal S64x512 .f32) (x : Vec Ideal S1x1024x512 .f32) :
    k0_pay9 (k0_pay7 v2 v4 x) (k0_pay8 v2 v4 x) = storedV v2 v4 x := rfl

theorem pay_batch0 (v0 : Vec Ideal S512x64 .f32) (v3 : Vec Ideal S64x512 .f32) (x : Vec Ideal S1x1024x512 .f32) :
    k0_pay6 (k0_pay4 v0 v3 x) (k0_pay5 v0 v3 x) = storedV (k0_pay2 v0) (k0_pay3 v3) x := rfl

theorem pay_batch2 (v2 : FVec Ideal S512x64 .bf16) (v4 : FVec Ideal S64x512 .f32) (x : Vec Ideal S1x1024x512 .f32) :
    k0_pay11 (k0_pay10 v2 v4 x) = storedV v2 v4 x := rfl

theorem pay_batch3 (v2 : FVec Ideal S512x64 .bf16) (v4 : FVec Ideal S64x512 .f32) (x : Vec Ideal S1x1024x512 .f32) :
    k0_pay1 (k0_pay12 v2 v4 x) = storedV v2 v4 x := rfl

end Cert.KernelIdeal.Stages

end
-- ==== Proof.Spec.lean ====
/-
  NetVLAD aggregation of one batch of descriptors, and of all of them, over the extended reals.

  For one batch: `X n d` are its 1024 descriptors of dimension 512, `E d k` the 64 cluster directions (each already
  multiplied by its column's batch-norm scale), `C k d` the 64 cluster centres.  A descriptor is softly assigned to the
  clusters by the softmax of its 64 logits `∑ d, X n d * E d k` (computed as usual after subtracting the row's maximum);
  cluster `k`'s residual is the assignment-weighted sum of the descriptors less the assigned mass times the centre; each
  cluster's residual is divided by its own Euclidean norm (floored at the small constant), and the whole 64 × 512 table
  by its Euclidean norm (floored likewise).  The result array lists, per batch, that table with the descriptor
  dimension major and the cluster minor: entry `j` is cluster `j % 64`, dimension `j / 64`.

  Nothing here is assumed finite: every definition is the literal composition of the exact operations.
-/
import Idealize.ShloMosaic.PureOps.Ideal
import Idealize.ShloMosaic.Lib.ValueIdx

noncomputable section

open scoped BigOperators

namespace Cert.NetVlad

open Idealize.ShloMosaic Idealize.ShloMosaic.ValueIdx

/-- The batch-norm epsilon: the f32 word both programs carry (about 1e-5). -/
def epsBN : EReal := Ideal.ofBits .f32 0x3727C5AC#32
/-- The floor of both normalisations: the f32 word both programs carry (about 1e-12). -/
def epsN : EReal := Ideal.ofBits .f32 0x2B8CBCCC#32
/-- The word of -∞, from which a row's maximum is folded. -/
def negInf : EReal := Ideal.ofBits .f32 0xFF800000#32

section Batch

variable (X : Fin 1024 → Fin 512 → EReal) (E : Fin 512 → Fin 64 → EReal) (C : Fin 64 → Fin 512 → EReal)

/-- Descriptor `n`'s logit for cluster `k`. -/
def logit (n : Fin 1024) (k : Fin 64) : EReal := ∑ d : Fin 512, X n d * E d k
/-- The largest of descriptor `n`'s logits. -/
def rowMax (n : Fin 1024) : EReal := (Finset.univ : Finset (Fin 64)).fold max negInf (fun k => logit X E n k)
/-- The exponential of a logit less its row's maximum. -/
def expo (n : Fin 1024) (k : Fin 64) : EReal := Ideal.exp (logit X E n k - rowMax X E n)
/-- The softmax's denominator. -/
def rowSum (n : Fin 1024) : EReal := ∑ k : Fin 64, expo X E n k
/-- The soft assignment of descriptor `n` to cluster `k`. -/
def assign (n : Fin 1024) (k : Fin 64) : EReal := Ideal.div (expo X E n k) (rowSum X E n)
/-- The mass assigned to cluster `k`. -/
def mass (k : Fin 64) : EReal := ∑ n : Fin 1024, assign X E n k
/-- The assignment-weighted sum of the descriptors, per cluster and dimension. -/
def gathered (k : Fin 64) (d : Fin 512) : EReal := ∑ n : Fin 1024, assign X E n k * X n d
/-- The residual to the cluster's centre. -/
def resid (k : Fin 64) (d : Fin 512) : EReal := gathered X E k d - mass X E k * C k d
/-- Cluster `k`'s residual norm, floored. -/
def normD (k : Fin 64) : EReal := max (Ideal.sqrt (∑ d : Fin 512, resid X E C k d * resid X E C k d)) epsN
/-- The residual normalised within its cluster. -/
def intra (k : Fin 64) (d : Fin 512) : EReal := Ideal.div (resid X E C k d) (normD X E C k)
/-- The norm of the whole table, floored. -/
def normG : EReal := max (Ideal.sqrt (∑ k : Fin 64, ∑ d : Fin 512, intra X E C k d * intra X E C k d)) epsN
/-- The batch's descriptor. -/
def vlad (k : Fin 64) (d : Fin 512) : EReal := Ideal.div (intra X E C k d) (normG X E C)

end Batch

section Args

variable (x0 : (⟨3, ![64, 1024, 512]⟩ : Shape).Idx → EReal) (x1 : (⟨2, ![512, 80]⟩ : Shape).Idx → EReal)
  (x2 x5 : (⟨1, ![80]⟩ : Shape).Idx → EReal) (x6 : (⟨3, ![1, 512, 64]⟩ : Shape).Idx → EReal)

/-- Column `k`'s batch-norm scale: weight over the square root of variance plus epsilon. -/
def scale (k : Fin 80) : EReal := Ideal.div (x2 (ix1 k)) (Ideal.sqrt (x5 (ix1 k) + epsBN))
/-- The first 64 cluster columns, scaled. -/
def eff (d : Fin 512) (k : Fin 64) : EReal :=
  x1 (ix2 d (Fin.castLE (by decide : 64 ≤ 80) k)) * scale x2 x5 (Fin.castLE (by decide : 64 ≤ 80) k)
/-- The cluster centres, cluster first. -/
def cen (k : Fin 64) (d : Fin 512) : EReal := x6 (ix3 (0 : Fin 1) d k)
/-- Batch `b`'s descriptors. -/
def batch (b : Fin 64) (n : Fin 1024) (d : Fin 512) : EReal := x0 (ix3 b n d)

/-- Batch `b`'s table. -/
def table (b : Fin 64) (k : Fin 64) (d : Fin 512) : EReal := vlad (batch x0 b) (eff x1 x2 x5) (cen x6) k d

/-- The result array: row `b` lists batch `b`'s table, dimension major, cluster minor. -/
def result : (⟨2, ![64, 32768]⟩ : Shape).Idx → EReal := fun i =>
  table x0 x1 x2 x5 x6 (i 0) ⟨(i 1).val % 64, Nat.mod_lt _ (by decide)⟩
    ⟨(i 1).val / 64, by have h : (i 1).val < 32768 := idx2_lt1 i; omega⟩

end Args

end Cert.NetVlad

end
-- ==== Proof.LibColumns.lean ====
/-
  Two layout operations on a column, read at an index: a vector of length `a` cast to an `a × 1` column,
  and an `a × 1` column broadcast along the rows of an `a × b` array.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibSumIdx.lean ====
/-
  Sums over the index sets of rank-1 and rank-3 shapes, as iterated sums over the coordinates.

  An index of a shape of rank r is the tuple of its r coordinates; the index set is in bijection with the product of the
  coordinate ranges, so a sum over it (in any commutative monoid) is the iterated sum over the coordinates.  The rank-2
  case is in the library; these are the same statement at ranks 1 and 3.
-/
import Idealize.ShloMosaic.Lib.ValueIdx

namespace Cert.LibSumIdx

open Idealize.ShloMosaic Idealize.ShloMosaic.ValueIdx

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

end Cert.LibSumIdx
-- ==== Proof.StagesRead.lean ====
/-
  Each stage of a batch's arithmetic read at an index, over the extended reals: a matrix product is the sum over the
  contracted coordinate, a reduction along an axis the sum (or the maximum) over that axis, a column repeated along rows
  reads the column; composed, the stored table is the specification's `vlad` of the batch's descriptors, the cluster
  directions and the centres.
-/
import proofs.«123267_j36215164240269_2_alg».proof.Proof.Stages
import proofs.«123267_j36215164240269_2_alg».proof.Proof.Spec
import proofs.«123267_j36215164240269_2_alg».proof.Proof.LibColumns
import proofs.«123267_j36215164240269_2_alg».proof.Proof.LibSumIdx
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Stages

open Idealize.ShloMosaic Idealize.ShloMosaic.ValueIdx Idealize.SL.Sem Cert.KernelIdeal Cert.KernelIdeal.Gen Cert.NetVlad

/-! ## The layout steps -/

theorem castX_apply (x : Vec Ideal S1x1024x512 .f32) (n : Fin 1024) (d : Fin 512) :
    castX x (ix2 n d) = x (ix3 (0 : Fin 1) n d) :=
  shapeCast_1ab_ab_apply x shapeCasts_S1x1024x512_S1024x512 n d

/-- A `[1, a]` row cast to an `[a, 1]` column reads, at `(p, u)`, the row at `p`. -/
theorem shapeCast_1a_a1_apply {α : Type} {a : ℕ} (x : (⟨2, ![1, a]⟩ : Shape).Idx → α) (h : (⟨2, ![1, a]⟩ : Shape).ShapeCasts ⟨2, ![a, 1]⟩)
    (p : Fin a) (u : Fin 1) : shapeCast ⟨2, ![a, 1]⟩ x h (ix2 p u) = x (ix2 (0 : Fin 1) p) :=
  shapeCast_apply x h _ _ (by
    have hu : u.val = 0 := by omega
    rw [Shape.rowMajor_val_two, Shape.rowMajor_val_two]
    show 0 * a + p.val = p.val * 1 + u.val
    rw [hu, Nat.zero_mul, Nat.zero_add, Nat.mul_one, Nat.add_zero])

/-! ## The two matrix products -/

theorem lhs1_0 (j : S1024x64.Idx) (q : dot_S1024x512_S512x64_S1024x64_1_0_0_1_n_n.contr.Idx) : (dot_S1024x512_S512x64_S1024x64_1_0_0_1_n_n.lhsIdx j q 0).val = (j 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
theorem rhs1_1 (j : S1024x64.Idx) (q : dot_S1024x512_S512x64_S1024x64_1_0_0_1_n_n.contr.Idx) : (dot_S1024x512_S512x64_S1024x64_1_0_0_1_n_n.rhsIdx j q 1).val = (j 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- A logit is the sum over the descriptor's coordinates of descriptor times direction. -/
theorem logitsV_apply (v7 : FVec Ideal S1024x512 .bf16) (v2 : FVec Ideal S512x64 .bf16) (n : Fin 1024) (k : Fin 64) :
    logitsV v7 v2 (ix2 n k) = ∑ d : Fin 512, v7 (ix2 n d) * v2 (ix2 d k) := by
  unfold logitsV
  simp only [matmul]
  rw [Ideal.matmul_constant_zero_apply, ← Equiv.sum_comp (contrEquiv1 dot_S1024x512_S512x64_S1024x64_1_0_0_1_n_n 512 rfl rfl).symm]
  refine Finset.sum_congr rfl fun d _ => ?_
  have hk := contrEquiv1_symm_val dot_S1024x512_S512x64_S1024x64_1_0_0_1_n_n 512 rfl rfl d
  have el : dot_S1024x512_S512x64_S1024x64_1_0_0_1_n_n.lhsIdx (ix2 n k) ((contrEquiv1 dot_S1024x512_S512x64_S1024x64_1_0_0_1_n_n 512 rfl rfl).symm d) = ix2 n d := funext fun a => Fin.ext (by
    match a with
    | ⟨0, _⟩ => exact lhs1_0 _ _
    | ⟨1, _⟩ => exact (dot_S1024x512_S512x64_S1024x64_1_0_0_1_n_n.lhsIdx_val_of_single rfl _ _).trans hk)
  have er : dot_S1024x512_S512x64_S1024x64_1_0_0_1_n_n.rhsIdx (ix2 n k) ((contrEquiv1 dot_S1024x512_S512x64_S1024x64_1_0_0_1_n_n 512 rfl rfl).symm d) = ix2 d k := funext fun a => Fin.ext (by
    match a with
    | ⟨0, _⟩ => exact (dot_S1024x512_S512x64_S1024x64_1_0_0_1_n_n.rhsIdx_val_of_single rfl _ _).trans hk
    | ⟨1, _⟩ => exact rhs1_1 _ _)
  rw [el, er]

theorem lhs2_1 (j : S64x512.Idx) (q : dot_S1024x64_S1024x512_S64x512_0_0_1_1_n_n.contr.Idx) : (dot_S1024x64_S1024x512_S64x512_0_0_1_1_n_n.lhsIdx j q 1).val = (j 0).val := by
  unfold DotDims.lhsIdx
  rw [dif_neg (show ¬(1 : Fin S1024x64.rank) ∈ dot_S1024x64_S1024x512_S64x512_0_0_1_1_n_n.lhsBatch by decide), dif_pos (show (1 : Fin S1024x64.rank) ∈ dot_S1024x64_S1024x512_S64x512_0_0_1_1_n_n.lhsNonContracting by decide)]
  rfl
theorem rhs2_1 (j : S64x512.Idx) (q : dot_S1024x64_S1024x512_S64x512_0_0_1_1_n_n.contr.Idx) : (dot_S1024x64_S1024x512_S64x512_0_0_1_1_n_n.rhsIdx j q 1).val = (j 1).val := by
  unfold DotDims.rhsIdx
  rw [dif_neg (show ¬(1 : Fin S1024x512.rank) ∈ dot_S1024x64_S1024x512_S64x512_0_0_1_1_n_n.rhsBatch by decide), dif_pos (show (1 : Fin S1024x512.rank) ∈ dot_S1024x64_S1024x512_S64x512_0_0_1_1_n_n.rhsNonContracting by decide)]
  rfl

/-- The weighted sum of descriptors is the sum over the descriptors of assignment times descriptor. -/
theorem gatherV_apply (A : FVec Ideal S1024x64 .f32) (v7 : FVec Ideal S1024x512 .bf16) (k : Fin 64) (d : Fin 512) :
    gatherV A v7 (ix2 k d) = ∑ n : Fin 1024, A (ix2 n k) * v7 (ix2 n d) := by
  unfold gatherV
  simp only [matmul]
  rw [Ideal.matmul_constant_zero_apply, ← Equiv.sum_comp (contrEquiv1 dot_S1024x64_S1024x512_S64x512_0_0_1_1_n_n 1024 rfl rfl).symm]
  refine Finset.sum_congr rfl fun n _ => ?_
  have hk := contrEquiv1_symm_val dot_S1024x64_S1024x512_S64x512_0_0_1_1_n_n 1024 rfl rfl n
  have el : dot_S1024x64_S1024x512_S64x512_0_0_1_1_n_n.lhsIdx (ix2 k d) ((contrEquiv1 dot_S1024x64_S1024x512_S64x512_0_0_1_1_n_n 1024 rfl rfl).symm n) = ix2 n k := funext fun a => Fin.ext (by
    match a with
    | ⟨0, _⟩ => exact (dot_S1024x64_S1024x512_S64x512_0_0_1_1_n_n.lhsIdx_val_of_single rfl _ _).trans hk
    | ⟨1, _⟩ => exact lhs2_1 _ _)
  have er : dot_S1024x64_S1024x512_S64x512_0_0_1_1_n_n.rhsIdx (ix2 k d) ((contrEquiv1 dot_S1024x64_S1024x512_S64x512_0_0_1_1_n_n 1024 rfl rfl).symm n) = ix2 n d := funext fun a => Fin.ext (by
    match a with
    | ⟨0, _⟩ => exact (dot_S1024x64_S1024x512_S64x512_0_0_1_1_n_n.rhsIdx_val_of_single rfl _ _).trans hk
    | ⟨1, _⟩ => exact rhs2_1 _ _)
  rw [el, er]
  rfl

end Cert.KernelIdeal.Stages

end
-- ==== Proof.StagesReduce.lean ====
/-
  The reductions of a batch's arithmetic read at an index: a row's maximum and sum, a cluster's assigned mass, the
  floored norm of a cluster's residual, the floored norm of the whole table.  Each is the library's reading of one
  reduction along an axis, with the small layout steps around it.
-/
import proofs.«123267_j36215164240269_2_alg».proof.Proof.StagesRead
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Stages

open Idealize.ShloMosaic Idealize.ShloMosaic.ValueIdx Idealize.SL.Sem Cert.KernelIdeal Cert.KernelIdeal.Gen Cert.NetVlad

/-! ## Pointwise steps the library does not name -/

theorem sqrt_apply {s : Shape} (a : FVec Ideal s .f32) (i : s.Idx) : sqrt a i = Ideal.sqrt (a i) := rfl
theorem exp_apply {s : Shape} (a : FVec Ideal s .f32) (i : s.Idx) : exp a i = Ideal.exp (a i) := rfl
/-- A scalar float word is the extended real its pattern denotes (at any word: nothing is evaluated). -/
theorem scalar_ofBits (b : BitVec 32) : Scalar.ofBits (F := Ideal) .f32 b = Ideal.ofBits .f32 b := rfl

/-! ## Reductions along an axis, and the columns repeated along rows -/

theorem rowMaxV_apply (Lg : FVec Ideal S1024x64 .f32) (n : Fin 1024) (k : Fin 64) :
    rowMaxV Lg (ix2 n k) = (Finset.univ : Finset (Fin 64)).fold max negInf (fun k' => Lg (ix2 n k')) := by
  unfold rowMaxV
  rw [broadcastTo_a1_ab_apply, shapeCast_a_a1_apply]
  refine (Ideal.multiReduction_maximumf_single Lg _ reduces_S1024x64_S1024 _ _ (ix1 n)).trans ?_
  exact Finset.fold_congr fun k' _ => congrArg Lg (funext fun a => Fin.ext (by match a with | ⟨0, _⟩ => rfl | ⟨1, _⟩ => rfl))

theorem rowSumV_apply (P : FVec Ideal S1024x64 .f32) (n : Fin 1024) (k : Fin 64) :
    rowSumV P (ix2 n k) = ∑ k' : Fin 64, P (ix2 n k') := by
  unfold rowSumV
  rw [broadcastTo_a1_ab_apply, shapeCast_a_a1_apply]
  refine (Ideal.multiReduction_add_single P _ reduces_S1024x64_S1024 _ _ (ix1 n)).trans ?_
  exact Finset.sum_congr rfl fun k' _ => congrArg P (funext fun a => Fin.ext (by match a with | ⟨0, _⟩ => rfl | ⟨1, _⟩ => rfl))

theorem massV_apply (A : FVec Ideal S1024x64 .f32) (k : Fin 64) (d : Fin 512) :
    massV A (ix2 k d) = ∑ n : Fin 1024, A (ix2 n k) := by
  unfold massV
  rw [broadcastTo_a1_ab_apply, shapeCast_1a_a1_apply, shapeCast_a_1a_apply]
  refine (Ideal.multiReduction_add_single A _ reduces_S1024x64_S64 _ _ (ix1 k)).trans ?_
  exact Finset.sum_congr rfl fun n _ => congrArg A (funext fun a => Fin.ext (by match a with | ⟨0, _⟩ => rfl | ⟨1, _⟩ => rfl))

theorem floorV_apply (R : FVec Ideal S64x512 .f32) (k : Fin 64) (d : Fin 512) :
    floorV R (ix2 k d) = max (Ideal.sqrt (∑ d' : Fin 512, R (ix2 k d') * R (ix2 k d'))) epsN := by
  have hs : shapeCast S64x1 (multiReduction .add [1] S64 (mulf R R) 0x00000000#32 reduces_S64x512_S64 (.inl rfl) rfl) shapeCasts_S64_S64x1 (ix2 k (0 : Fin 1))
      = ∑ d' : Fin 512, R (ix2 k d') * R (ix2 k d') := by
    rw [shapeCast_a_a1_apply]
    refine (Ideal.multiReduction_add_single (mulf R R) _ reduces_S64x512_S64 _ _ (ix1 k)).trans ?_
    have key : ∀ d' : Fin 512, (mulf R R) (reduces_S64x512_S64.lift (ix1 k) d') = R (ix2 k d') * R (ix2 k d') := fun d' => by
      have e : reduces_S64x512_S64.lift (ix1 k) d' = ix2 k d' := funext fun a => Fin.ext (by match a with | ⟨0, _⟩ => rfl | ⟨1, _⟩ => rfl)
      rw [e, mulf_apply]
    exact Finset.sum_congr rfl fun d' _ => key d'
  unfold floorV epsN
  rw [broadcastTo_a1_ab_apply, maximumf_apply, broadcast_apply, scalar_ofBits, sqrt_apply, hs]

/-- A sum over the two table axes of a `[1, 64, 512]` array is the double sum over cluster and dimension. -/
theorem total_apply (W : FVec Ideal S1x64x512 .f32) (j : S1.Idx) :
    multiReduction .add [1, 2] S1 W 0x00000000#32 reduces_S1x64x512_S1 (.inl rfl) rfl j
      = ∑ k : Fin 64, ∑ d : Fin 512, W (ix3 (0 : Fin 1) k d) := by
  refine (Ideal.multiReduction_add_total W _ reduces_S1x64x512_S1 (by decide) _ _ j).trans ?_
  rw [Cert.LibSumIdx.sum_idx3, Fin.sum_univ_one]

theorem gnormV_apply (U : FVec Ideal S64x512 .f32) (i : S1x1.Idx) :
    gnormV U i = max (Ideal.sqrt (∑ k : Fin 64, ∑ d : Fin 512, U (ix2 k d) * U (ix2 k d))) epsN := by
  have hW : ∀ j, multiReduction .add [1, 2] S1 (shapeCast S1x64x512 (mulf U U) shapeCasts_S64x512_S1x64x512) 0x00000000#32
        reduces_S1x64x512_S1 (.inl rfl) rfl j
      = ∑ k : Fin 64, ∑ d : Fin 512, U (ix2 k d) * U (ix2 k d) := fun j =>
    (total_apply _ j).trans (Finset.sum_congr rfl fun k _ => Finset.sum_congr rfl fun d _ => by
      rw [shapeCast_ab_1ab_apply, mulf_apply])
  have hs : extractAt ![0, 0, 0] (shapeCast S1x1x1 (multiReduction .add [1, 2] S1
        (shapeCast S1x64x512 (mulf U U) shapeCasts_S64x512_S1x64x512) 0x00000000#32 reduces_S1x64x512_S1 (.inl rfl) rfl) shapeCasts_S1_S1x1x1)
        inpos_S1x1x1_p0_0_0
      = ∑ k : Fin 64, ∑ d : Fin 512, U (ix2 k d) * U (ix2 k d) := by
    unfold extractAt
    rw [shapeCast_apply _ shapeCasts_S1_S1x1x1 _ (ix1 (0 : Fin 1)) (by rw [Shape.rowMajor_val_three, Shape.rowMajor_val_one]; rfl)]
    exact hW _
  unfold gnormV epsN
  rw [maximumf_apply, broadcast_apply, scalar_ofBits, sqrt_apply, broadcast_apply, hs]

end Cert.KernelIdeal.Stages

end
-- ==== Proof.StagesSpec.lean ====
/-
  The stages composed: what the body stores for one batch is the specification's descriptor `vlad` of the batch's
  descriptors, the cluster directions and the centres, entry by entry.
-/
import proofs.«123267_j36215164240269_2_alg».proof.Proof.StagesReduce
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Stages

open Idealize.ShloMosaic Idealize.ShloMosaic.ValueIdx Idealize.SL.Sem Cert.KernelIdeal Cert.KernelIdeal.Gen Cert.NetVlad

section Batch

variable (x : Vec Ideal S1x1024x512 .f32) (v2 : FVec Ideal S512x64 .bf16) (v4 : FVec Ideal S64x512 .f32)

/-- The batch's descriptors, the cluster directions and the centres, by coordinates. -/
def Xof : Fin 1024 → Fin 512 → EReal := fun n d => x (ix3 (0 : Fin 1) n d)
def Eof : Fin 512 → Fin 64 → EReal := fun d k => v2 (ix2 d k)
def Cof : Fin 64 → Fin 512 → EReal := fun k d => v4 (ix2 k d)

theorem logits_eq (n : Fin 1024) (k : Fin 64) : logitsV (castX x) v2 (ix2 n k) = logit (Xof x) (Eof v2) n k := by
  rw [logitsV_apply]
  unfold logit Xof Eof
  exact Finset.sum_congr rfl fun d _ => by rw [castX_apply]

variable {x v2} in
theorem expV_eq (Lg : FVec Ideal S1024x64 .f32) (hL : ∀ n k, Lg (ix2 n k) = logit (Xof x) (Eof v2) n k) (n : Fin 1024) (k : Fin 64) :
    expV Lg (ix2 n k) = expo (Xof x) (Eof v2) n k := by
  have hm : rowMaxV Lg (ix2 n k) = rowMax (Xof x) (Eof v2) n := by
    rw [rowMaxV_apply]; unfold rowMax
    exact Finset.fold_congr fun k' _ => hL n k'
  unfold expV expo
  rw [exp_apply, subf_apply, hm, hL]

variable {x v2} in
theorem assignV_eq (Lg : FVec Ideal S1024x64 .f32) (hL : ∀ n k, Lg (ix2 n k) = logit (Xof x) (Eof v2) n k) (n : Fin 1024) (k : Fin 64) :
    assignV Lg (ix2 n k) = assign (Xof x) (Eof v2) n k := by
  have hs : rowSumV (expV Lg) (ix2 n k) = rowSum (Xof x) (Eof v2) n := by
    rw [rowSumV_apply]; unfold rowSum
    exact Finset.sum_congr rfl fun k' _ => expV_eq Lg hL n k'
  unfold assignV assign
  rw [divf_apply, hs, expV_eq Lg hL]

variable {x v2} in
theorem residV_eq (A : FVec Ideal S1024x64 .f32) (hA : ∀ n k, A (ix2 n k) = assign (Xof x) (Eof v2) n k) (k : Fin 64) (d : Fin 512) :
    residV A (castX x) v4 (ix2 k d) = resid (Xof x) (Eof v2) (Cof v4) k d := by
  have hg : gatherV A (castX x) (ix2 k d) = gathered (Xof x) (Eof v2) k d := by
    rw [gatherV_apply]; unfold gathered
    exact Finset.sum_congr rfl fun n _ => by rw [hA, castX_apply]; rfl
  have hm : massV A (ix2 k d) = mass (Xof x) (Eof v2) k := by
    rw [massV_apply]; unfold mass
    exact Finset.sum_congr rfl fun n _ => hA n k
  unfold residV resid
  rw [subf_apply, mulf_apply, hg, hm]
  rfl

variable {x v2 v4} in
theorem intraV_eq (R : FVec Ideal S64x512 .f32) (hR : ∀ k d, R (ix2 k d) = resid (Xof x) (Eof v2) (Cof v4) k d) (k : Fin 64) (d : Fin 512) :
    intraV R (ix2 k d) = intra (Xof x) (Eof v2) (Cof v4) k d := by
  have hf : floorV R (ix2 k d) = normD (Xof x) (Eof v2) (Cof v4) k := by
    rw [floorV_apply]; unfold normD
    simp only [hR]
  unfold intraV intra
  rw [divf_apply, hf, hR]

/-- One batch's table, normalised within clusters. -/
theorem tableV_apply (k : Fin 64) (d : Fin 512) : tableV v2 v4 x (ix2 k d) = intra (Xof x) (Eof v2) (Cof v4) k d := by
  unfold tableV
  exact intraV_eq _ (residV_eq v4 _ (assignV_eq _ (logits_eq x v2))) k d

/-- What the body stores for one batch is the specification's descriptor of it. -/
theorem storedV_apply (u : Fin 1) (k : Fin 64) (d : Fin 512) :
    storedV v2 v4 x (ix3 u k d) = vlad (Xof x) (Eof v2) (Cof v4) k d := by
  have hb : broadcastTo S64x512 (gnormV (tableV v2 v4 x)) broadcasts_S1x1_S64x512 (ix2 k d) = normG (Xof x) (Eof v2) (Cof v4) := by
    rw [broadcastTo_apply _ broadcasts_S1x1_S64x512 (ix2 k d) (ix2 (0 : Fin 1) (0 : Fin 1)) (fun a => by
      match a with
      | ⟨0, _⟩ => rfl
      | ⟨1, _⟩ => rfl)]
    rw [gnormV_apply]; unfold normG
    simp only [tableV_apply]
  unfold storedV vlad
  rw [shapeCast_ab_1ab_apply, divf_apply, hb, tableV_apply]

end Batch

end Cert.KernelIdeal.Stages

end
-- ==== Proof.KernelBlock.lean ====
/-
  One grid point's output block as ONE function of the point's input blocks: the body stores, for each of the four
  batches of the block of descriptors, that batch's descriptor table; the four stores tile the output block, so entry
  `(bb, k, d)` of the block is the specification's `vlad` of batch `bb` of the block at cluster `k`, dimension `d`.
-/
import proofs.«123267_j36215164240269_2_alg».proof.Proof.Gen.KernelIdeal.Frame
import proofs.«123267_j36215164240269_2_alg».proof.Proof.StagesSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Block

open Idealize.ShloMosaic Idealize.ShloMosaic.ValueIdx Idealize.SL.Sem Cert.KernelIdeal Cert.KernelIdeal.Gen Cert.NetVlad Cert.KernelIdeal.Stages

/-- One point's output block, entry by entry: batch `y 0` of the point's block of descriptors, cluster `y 1`, dimension `y 2`. -/
def Gblk (xb : Vec Ideal S4x1024x512 .f32) (eb : Vec Ideal S512x64 .f32) (cb : Vec Ideal S64x512 .f32) : Vec Ideal S4x64x512 .f32 :=
  fun y => vlad (fun n d => xb (ix3 (y 0) n d)) (fun d k => eb (ix2 d k)) (fun k d => cb (ix2 k d)) (y 1) (y 2)

theorem hz2 : (![0, 0] : Fin 2 → Nat) = fun _ => 0 := funext fun a => by fin_cases a <;> rfl

theorem pay2_eq (v0 : Vec Ideal S512x64 .f32) :
    k0_pay2 v0 = truncf .bf16 (shapeCast S512x64 v0 shapeCasts_S512x64_S512x64) bitsLt_bf16_f32 := rfl
theorem pay3_eq (v3 : Vec Ideal S64x512 .f32) : k0_pay3 v3 = shapeCast S64x512 v3 shapeCasts_S64x512_S64x512 := rfl

/-- The cluster directions the body loads are the whole block of them (the change of format is the identity). -/
theorem Eof_ld (eb : Vec Ideal S512x64 .f32) : Eof (k0_pay2 (View.ld eb r0_0)) = fun d k => eb (ix2 d k) := by
  rw [View.ld_unit_zero (S := S512x64) hz2, pay2_eq, shapeCast_self]
  rfl
/-- The centres the body loads are the whole block of them. -/
theorem Cof_ld (cb : Vec Ideal S64x512 .f32) : Cof (k0_pay3 (View.ld cb r0_1)) = fun k d => cb (ix2 k d) := by
  rw [View.ld_unit_zero (S := S64x512) hz2, pay3_eq, shapeCast_self]
  rfl

theorem piece0 (xb : Vec Ideal S4x1024x512 .f32) (eb : Vec Ideal S512x64 .f32) (cb : Vec Ideal S64x512 .f32) (x : S1x64x512.Idx) :
    storedV (k0_pay2 (View.ld eb r0_0)) (k0_pay3 (View.ld cb r0_1)) (View.ld xb r0_2) x = Gblk xb eb cb (r0_3.emb x) := by
  obtain ⟨u, k, d, rfl⟩ : ∃ (u : Fin 1) (k : Fin 64) (d : Fin 512), x = ix3 u k d := ⟨x 0, x 1, x 2, eq_ix3 x⟩
  have hu : u.val = 0 := by omega
  have e0 : r0_3.emb (ix3 u k d) = ix3 (⟨0, by decide⟩ : Fin 4) k d := funext fun a => Fin.ext (by
    match a with
    | ⟨0, _⟩ => show 0 + 1 * u.val = 0; omega
    | ⟨1, _⟩ => show 0 + 1 * k.val = k.val; omega
    | ⟨2, _⟩ => show 0 + 1 * d.val = d.val; omega)
  have hX : Xof (View.ld xb r0_2) = fun n d' => xb (ix3 (⟨0, by decide⟩ : Fin 4) n d') :=
    funext fun n => funext fun d' => congrArg xb (funext fun a => Fin.ext (by
      match a with
      | ⟨0, _⟩ => show 0 + 1 * 0 = 0; omega
      | ⟨1, _⟩ => show 0 + 1 * n.val = n.val; omega
      | ⟨2, _⟩ => show 0 + 1 * d'.val = d'.val; omega))
  rw [storedV_apply, e0, hX, Eof_ld, Cof_ld]
  rfl

theorem piece1 (xb : Vec Ideal S4x1024x512 .f32) (eb : Vec Ideal S512x64 .f32) (cb : Vec Ideal S64x512 .f32) (x : S1x64x512.Idx) :
    storedV (k0_pay2 (View.ld eb r0_0)) (k0_pay3 (View.ld cb r0_1)) (View.ld xb r0_4) x = Gblk xb eb cb (r0_5.emb x) := by
  obtain ⟨u, k, d, rfl⟩ : ∃ (u : Fin 1) (k : Fin 64) (d : Fin 512), x = ix3 u k d := ⟨x 0, x 1, x 2, eq_ix3 x⟩
  have hu : u.val = 0 := by omega
  have e0 : r0_5.emb (ix3 u k d) = ix3 (⟨1, by decide⟩ : Fin 4) k d := funext fun a => Fin.ext (by
    match a with
    | ⟨0, _⟩ => show 1 + 1 * u.val = 1; omega
    | ⟨1, _⟩ => show 0 + 1 * k.val = k.val; omega
    | ⟨2, _⟩ => show 0 + 1 * d.val = d.val; omega)
  have hX : Xof (View.ld xb r0_4) = fun n d' => xb (ix3 (⟨1, by decide⟩ : Fin 4) n d') :=
    funext fun n => funext fun d' => congrArg xb (funext fun a => Fin.ext (by
      match a with
      | ⟨0, _⟩ => show 1 + 1 * 0 = 1; omega
      | ⟨1, _⟩ => show 0 + 1 * n.val = n.val; omega
      | ⟨2, _⟩ => show 0 + 1 * d'.val = d'.val; omega))
  rw [storedV_apply, e0, hX, Eof_ld, Cof_ld]
  rfl

theorem piece2 (xb : Vec Ideal S4x1024x512 .f32) (eb : Vec Ideal S512x64 .f32) (cb : Vec Ideal S64x512 .f32) (x : S1x64x512.Idx) :
    storedV (k0_pay2 (View.ld eb r0_0)) (k0_pay3 (View.ld cb r0_1)) (View.ld xb r0_6) x = Gblk xb eb cb (r0_7.emb x) := by
  obtain ⟨u, k, d, rfl⟩ : ∃ (u : Fin 1) (k : Fin 64) (d : Fin 512), x = ix3 u k d := ⟨x 0, x 1, x 2, eq_ix3 x⟩
  have hu : u.val = 0 := by omega
  have e0 : r0_7.emb (ix3 u k d) = ix3 (⟨2, by decide⟩ : Fin 4) k d := funext fun a => Fin.ext (by
    match a with
    | ⟨0, _⟩ => show 2 + 1 * u.val = 2; omega
    | ⟨1, _⟩ => show 0 + 1 * k.val = k.val; omega
    | ⟨2, _⟩ => show 0 + 1 * d.val = d.val; omega)
  have hX : Xof (View.ld xb r0_6) = fun n d' => xb (ix3 (⟨2, by decide⟩ : Fin 4) n d') :=
    funext fun n => funext fun d' => congrArg xb (funext fun a => Fin.ext (by
      match a with
      | ⟨0, _⟩ => show 2 + 1 * 0 = 2; omega
      | ⟨1, _⟩ => show 0 + 1 * n.val = n.val; omega
      | ⟨2, _⟩ => show 0 + 1 * d'.val = d'.val; omega))
  rw [storedV_apply, e0, hX, Eof_ld, Cof_ld]
  rfl

theorem piece3 (xb : Vec Ideal S4x1024x512 .f32) (eb : Vec Ideal S512x64 .f32) (cb : Vec Ideal S64x512 .f32) (x : S1x64x512.Idx) :
    storedV (k0_pay2 (View.ld eb r0_0)) (k0_pay3 (View.ld cb r0_1)) (View.ld xb r0_8) x = Gblk xb eb cb (r0_9.emb x) := by
  obtain ⟨u, k, d, rfl⟩ : ∃ (u : Fin 1) (k : Fin 64) (d : Fin 512), x = ix3 u k d := ⟨x 0, x 1, x 2, eq_ix3 x⟩
  have hu : u.val = 0 := by omega
  have e0 : r0_9.emb (ix3 u k d) = ix3 (⟨3, by decide⟩ : Fin 4) k d := funext fun a => Fin.ext (by
    match a with
    | ⟨0, _⟩ => show 3 + 1 * u.val = 3; omega
    | ⟨1, _⟩ => show 0 + 1 * k.val = k.val; omega
    | ⟨2, _⟩ => show 0 + 1 * d.val = d.val; omega)
  have hX : Xof (View.ld xb r0_8) = fun n d' => xb (ix3 (⟨3, by decide⟩ : Fin 4) n d') :=
    funext fun n => funext fun d' => congrArg xb (funext fun a => Fin.ext (by
      match a with
      | ⟨0, _⟩ => show 3 + 1 * 0 = 3; omega
      | ⟨1, _⟩ => show 0 + 1 * n.val = n.val; omega
      | ⟨2, _⟩ => show 0 + 1 * d'.val = d'.val; omega))
  rw [storedV_apply, e0, hX, Eof_ld, Cof_ld]
  rfl

/-- What the body leaves in the output window's buffer is that block. -/
theorem out0_3_eq (xb : Vec Ideal S4x1024x512 .f32) (eb : Vec Ideal S512x64 .f32) (cb : Vec Ideal S64x512 .f32) :
    out0_3 xb eb cb = Gblk xb eb cb := by
  funext y
  unfold out0_3
  rw [pay_batch3, pay_batch2, pay_batch1, pay_batch0]
  refine View.canon_apply_of_pieces (Gblk xb eb cb) _ ?_ y (cover0_3 _ _ _ _ y)
  intro p hp x
  simp only [List.mem_cons, List.mem_nil_iff, or_false] at hp
  rcases hp with rfl | rfl | rfl | rfl
  · exact piece3 xb eb cb x
  · exact piece2 xb eb cb x
  · exact piece1 xb eb cb x
  · exact piece0 xb eb cb x

end Cert.KernelIdeal.Block

end
-- ==== Proof.KernelArray.lean ====
/-
  From blocks to the array.  Grid point `t` (of 16) stages batches `4 t … 4 t + 3` of the descriptors and the whole tables
  of cluster directions and centres, and writes back rows `4 t … 4 t + 3` of the region's output; the sixteen blocks tile
  it.  So after the region its output array holds, at `(b, k, d)`, the specification's `vlad` of batch `b` at cluster
  `k`, dimension `d` — one function of the arrays the region finds.
-/
import proofs.«123267_j36215164240269_2_alg».proof.Proof.KernelBlock
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Arr

open Idealize.ShloMosaic Idealize.ShloMosaic.ValueIdx Idealize.SL.Sem Cert.KernelIdeal Cert.KernelIdeal.Gen Cert.NetVlad Cert.KernelIdeal.Stages Cert.KernelIdeal.Block
open Idealize.ShloMosaic.Pipeline (Dat Cfg Window)

variable (m : (ℓ : Loc nD τ sig) → Buf (Elt Ideal) ℓ)

/-- The region's output array as one function of the descriptors, the cluster directions and the centres. -/
def G11 (a0 : S64x1024x512.Idx → EReal) (e : S512x64.Idx → EReal) (cc : S64x512.Idx → EReal) : S64x64x512.Idx → EReal :=
  fun i => vlad (fun n d => a0 (ix3 (i 0) n d)) (fun d k => e (ix2 d k)) (fun k d => cc (ix2 k d)) (i 1) (i 2)

/-- The printed index maps, decided once over the grid: the descriptors' and the output's blocks move with the point
    along the batch axis; the two tables are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of `G11` of the arrays as the region finds them. -/
theorem flushed_eq (c : Dev nD) (t : Fin cfg0.N) :
    (dats m 0 c).flushed 3 t = ((cfg0.win 3).blk t).view.read (Elt Ideal) (G11 (V m c main_arg0) (V m c main_v8) (V m c main_v10)) := by
  show (cfg0.win 3).cut (grid0.coords t) ((dats m 0 c).after 3 t) = _
  rw [after0_3, out0_3_eq]
  obtain ⟨a0, a1, a2, b0, b1, c0, c1, o0, o1, o2⟩ := idx_facts t
  funext j
  show Gblk (iblk m c 0 t) (iblk m c 1 t) (iblk m c 2 t) j = G11 (V m c main_arg0) (V m c main_v8) (V m c main_v10) (((cfg0.win 3).blk t).view.emb j)
  unfold Gblk G11
  have hj0 : (j 0).val < 4 := (j 0).isLt
  have hj1 : (j 1).val < 64 := (j 1).isLt
  have hj2 : (j 2).val < 512 := (j 2).isLt
  have hX : (fun (n : Fin 1024) (d : Fin 512) => iblk m c 0 t (ix3 (j 0) n d))
      = fun n d => V m c main_arg0 (ix3 ((((cfg0.win 3).blk t).view.emb j) 0) n d) := by
    funext n d
    show V m c main_arg0 (((cfg0.win 0).blk t).view.emb (ix3 (j 0) n d)) = _
    refine congrArg (V m c main_arg0) (funext fun a => Fin.ext ?_)
    match a with
    | ⟨0, _⟩ => show win0_0.index t (0 : Fin 3) * 4 + 1 * (j 0).val = win0_3.index t (0 : Fin 3) * 4 + 1 * (j 0).val; omega
    | ⟨1, _⟩ => show win0_0.index t (1 : Fin 3) * 1024 + 1 * n.val = n.val; omega
    | ⟨2, _⟩ => show win0_0.index t (2 : Fin 3) * 512 + 1 * d.val = d.val; omega
  have hE : (fun (d : Fin 512) (k : Fin 64) => iblk m c 1 t (ix2 d k)) = fun d k => V m c main_v8 (ix2 d k) := by
    funext d k
    show V m c main_v8 (((cfg0.win 1).blk t).view.emb (ix2 d k)) = _
    refine congrArg (V m c main_v8) (funext fun a => Fin.ext ?_)
    match a with
    | ⟨0, _⟩ => show win0_1.index t (0 : Fin 2) * 512 + 1 * d.val = d.val; omega
    | ⟨1, _⟩ => show win0_1.index t (1 : Fin 2) * 64 + 1 * k.val = k.val; omega
  have hC : (fun (k : Fin 64) (d : Fin 512) => iblk m c 2 t (ix2 k d)) = fun k d => V m c main_v10 (ix2 k d) := by
    funext k d
    show V m c main_v10 (((cfg0.win 2).blk t).view.emb (ix2 k d)) = _
    refine congrArg (V m c main_v10) (funext fun a => Fin.ext ?_)
    match a with
    | ⟨0, _⟩ => show win0_2.index t (0 : Fin 2) * 64 + 1 * k.val = k.val; omega
    | ⟨1, _⟩ => show win0_2.index t (1 : Fin 2) * 512 + 1 * d.val = d.val; omega
  have h1 : j 1 = (((cfg0.win 3).blk t).view.emb j) 1 := Fin.ext (by
    show (j 1).val = win0_3.index t (1 : Fin 3) * 64 + 1 * (j 1).val; omega)
  have h2 : j 2 = (((cfg0.win 3).blk t).view.emb j) 2 := Fin.ext (by
    show (j 2).val = win0_3.index t (2 : Fin 3) * 512 + 1 * (j 2).val; omega)
  rw [hX, hE, hC, ← h1, ← h2]

/-- An index of the output array is in point `t`'s block iff each coordinate is in the block's range on its axis. -/
theorem mem_blk (t : Fin cfg0.N) (i : S64x64x512.Idx) :
    i ∈ ((cfg0.win 3).blk t).view.set ↔ ∀ a : Fin 3, win0_3.index t a * S4x64x512.size a ≤ (i a).val ∧ (i a).val < win0_3.index t a * S4x64x512.size a + S4x64x512.size a := by
  show i ∈ ((View.whole main_v11).slice (win0_3.rect t)).set ↔ _
  rw [View.set_slice_whole, Rect.mem_set_unit]
  exact Iff.rfl

/-- The sixteen blocks cover the output array: row `b` is in point `b / 4`'s block. -/
theorem cover (i : S64x64x512.Idx) : ∃ t : Fin cfg0.N, (cfg0.win 3).flush t = true ∧ i ∈ ((cfg0.win 3).blk t).view.set := by
  have hi0 : (i 0).val < 64 := (i 0).isLt
  have hi1 : (i 1).val < 64 := (i 1).isLt
  have hi2 : (i 2).val < 512 := (i 2).isLt
  refine ⟨⟨(i 0).val / 4, by show (i 0).val / 4 < 16; omega⟩, flush0_3 _, ?_⟩
  rw [mem_blk]
  obtain ⟨-, -, -, -, -, -, -, o0, o1, o2⟩ := idx_facts ⟨(i 0).val / 4, by show (i 0).val / 4 < 16; omega⟩
  intro a
  match a with
  | ⟨0, _⟩ => show win0_3.index _ (0 : Fin 3) * 4 ≤ (i 0).val ∧ (i 0).val < win0_3.index _ (0 : Fin 3) * 4 + 4; rw [o0]; show (i 0).val / 4 * 4 ≤ (i 0).val ∧ (i 0).val < (i 0).val / 4 * 4 + 4; omega
  | ⟨1, _⟩ => show win0_3.index _ (1 : Fin 3) * 64 ≤ (i 1).val ∧ (i 1).val < win0_3.index _ (1 : Fin 3) * 64 + 64; rw [o1]; omega
  | ⟨2, _⟩ => show win0_3.index _ (2 : Fin 3) * 512 ≤ (i 2).val ∧ (i 2).val < win0_3.index _ (2 : Fin 3) * 512 + 512; rw [o2]; omega

/-- THE ARRAY after the region: `G11` of the arrays the region finds. -/
theorem final (c : Dev nD) :
    (dats m 0 c).arrAt 3 cfg0.N = G11 (V m c main_arg0) (V m c main_v8) (V m c main_v10) :=
  (dats m 0 c).arrAt_eq_of_cover 3 _ (fun t _ => flushed_eq m c t) cover

end Cert.KernelIdeal.Arr

end
-- ==== Proof.HostSides.lean ====
/-
  The host operations around the region, read at an index.  Before the region the host scales the first 64 cluster
  columns by the batch-norm scale (weight over the square root of variance plus epsilon) and lays the centres out
  cluster first; after it, it swaps the table's two axes and flattens them, so that entry `j` of a batch's row is
  cluster `j % 64`, dimension `j / 64`.  Read this way the kernel's result array is the specification's `result`.
-/
import proofs.«123267_j36215164240269_2_alg».proof.Proof.KernelArray
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost

set_option maxRecDepth 16384

noncomputable section

open scoped BigOperators

namespace Cert.KernelIdeal.Host

open Idealize.ShloMosaic Idealize.ShloMosaic.ValueIdx Idealize.SL.Sem Cert.KernelIdeal Cert.KernelIdeal.Gen Cert.NetVlad Cert.KernelIdeal.Stages Cert.KernelIdeal.Block Cert.KernelIdeal.Arr
open Idealize.ShloMosaic.StableHlo Idealize.ShloMosaic.TcCoe

variable (m : (ℓ : Loc nD τ sig) → Buf (Elt Ideal) ℓ)

theorem hostSqrt_apply {s : Shape} (a : FVec Ideal s .f32) (i : s.Idx) : Host.sqrt a i = Ideal.sqrt (a i) := rfl
theorem hostDivf_apply {s : Shape} (a b : FVec Ideal s .f32) (i : s.Idx) : Host.divf a b i = Ideal.div (a i) (b i) := rfl

/-! ## Before the region -/

/-- The scaled cluster directions, as the region finds them: the host operations' term of the arguments. -/
theorem V_v8 (c : Dev nD) : (V m c main_v8 : S512x64.Idx → EReal) =
    mulf (extractStridedSlice S512x64 ![0, 0] (m ((c : Thread nD τ).loc main_arg1)) slices_S512x80_S512x64_0_0)
      (broadcastInDim S512x64 ![0, 1] bcast_S1x64_S512x64_0_1 (broadcastInDim S1x64 ![1] bcast_S64_S1x64_1
        (extractStridedSlice S64 ![0] (Host.divf (m ((c : Thread nD τ).loc main_arg2)) (Host.sqrt (addf (m ((c : Thread nD τ).loc main_arg5))
          (broadcastInDim S80 ![] bcast_S_S80 (constant (F := Ideal) S_ .f32 0x3727C5AC#32))))) slices_S80_S64_0))) := by
  show StableHlo.after hostOps0 (fun b => m (c, b)) (Proc.devRef .tc main_v8) = _
  after_results
  first | done | rfl

/-- The centres, cluster first, as the region finds them. -/
theorem V_v10 (c : Dev nD) : (V m c main_v10 : S64x512.Idx → EReal) =
    transpose S64x512 [1, 0] (shapeCast S512x64 (m ((c : Thread nD τ).loc main_arg6)) shapeCasts_S1x512x64_S512x64) transposes_S512x64_S64x512_1_0 := by
  show StableHlo.after hostOps0 (fun b => m (c, b)) (Proc.devRef .tc main_v10) = _
  after_results
  first | done | rfl

/-- Read at an index, the scaled directions are the specification's `eff`. -/
theorem V_v8_apply (c : Dev nD) (d : Fin 512) (k : Fin 64) :
    V m c main_v8 (ix2 d k) = eff (m ((c : Thread nD τ).loc main_arg1)) (m ((c : Thread nD τ).loc main_arg2)) (m ((c : Thread nD τ).loc main_arg5)) d k := by
  rw [V_v8]
  unfold eff scale epsBN
  rw [mulf_apply,
    extractStridedSlice_apply ![0, 0] _ slices_S512x80_S512x64_0_0 (ix2 d k) (ix2 d (Fin.castLE (by decide : 64 ≤ 80) k)) (fun a => by
      match a with
      | ⟨0, _⟩ => show d.val = 0 + d.val; omega
      | ⟨1, _⟩ => show k.val = 0 + k.val; omega),
    broadcastInDim_apply _ bcast_S1x64_S512x64_0_1 _ (ix2 d k) (ix2 (0 : Fin 1) k) (fun a => by
      match a with
      | ⟨0, _⟩ => rfl
      | ⟨1, _⟩ => rfl),
    broadcastInDim_apply _ bcast_S64_S1x64_1 _ (ix2 (0 : Fin 1) k) (ix1 k) (fun a => by
      match a with
      | ⟨0, _⟩ => rfl),
    extractStridedSlice_apply ![0] _ slices_S80_S64_0 (ix1 k) (ix1 (Fin.castLE (by decide : 64 ≤ 80) k)) (fun a => by
      match a with
      | ⟨0, _⟩ => show k.val = 0 + k.val; omega),
    hostDivf_apply, hostSqrt_apply, addf_apply, broadcastInDim_scalar_apply, constant_apply]

/-- Read at an index, the centres are the specification's `cen`. -/
theorem V_v10_apply (c : Dev nD) (k : Fin 64) (d : Fin 512) :
    V m c main_v10 (ix2 k d) = cen (m ((c : Thread nD τ).loc main_arg6)) k d := by
  rw [V_v10, transpose_ix2_apply, shapeCast_1ab_ab_apply]
  rfl

end Cert.KernelIdeal.Host

end
-- ==== Proof.KernelRun.lean ====
/-
  The idealized kernel's run, read: every weakly fair execution ends with the result array at the specification's
  `result` of the argument arrays, and the arguments unchanged.  The result is what the host's last two operations —
  swapping the table's two axes and flattening them — make of the region's output array.
-/
import proofs.«123267_j36215164240269_2_alg».proof.Proof.HostSides
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost

set_option maxRecDepth 16384

noncomputable section

open scoped BigOperators

namespace Cert.KernelIdeal.Run

open Idealize.ShloMosaic Idealize.ShloMosaic.ValueIdx Idealize.SL.Sem Cert.KernelIdeal Cert.KernelIdeal.Gen Cert.NetVlad Cert.KernelIdeal.Stages Cert.KernelIdeal.Block Cert.KernelIdeal.Arr Cert.KernelIdeal.Host
open Idealize.ShloMosaic.StableHlo Idealize.ShloMosaic.TcCoe

variable (m : (ℓ : Loc nD τ sig) → Buf (Elt Ideal) ℓ) (ρ : Dev nD → PrngReg)

/-- The result array after the tail: the region's output, axes swapped, flattened. -/
theorem tail_v13 (c : Dev nD) :
    (Pipeline.afterTail₀ cfgs (dats m) 0 (V0 m) [hostOps1] c main_v13 : S64x32768.Idx → EReal)
      = shapeCast S64x32768 (transpose S64x512x64 [0, 2, 1] (G11 (V m c main_arg0) (V m c main_v8) (V m c main_v10))
          transposes_S64x64x512_S64x512x64_0_2_1) shapeCasts_S64x512x64_S64x32768 := by
  have hw : Pipeline.withArrays (cfgs 0).spec c (V0 m c) (fun w => (dats m 0 c).arrAt w (cfgs 0).N) (Proc.devRef .tc main_v11)
      = G11 (V m c main_arg0) (V m c main_v8) (V m c main_v10) :=
    (Pipeline.withArrays_arr spec0 launch0.win.arr_inj c _ _ 3).trans (final m c)
  unfold Pipeline.afterTail₀
  show StableHlo.after hostOps1 _ (Proc.devRef .tc main_v13) = _
  after_results
  rw [hw]
  rfl

/-- Entry `j` of row `b` of the result is the specification's. -/
theorem tail_apply (c : Dev nD) (b : Fin 64) (j : Fin 32768) :
    Pipeline.afterTail₀ cfgs (dats m) 0 (V0 m) [hostOps1] c main_v13 (ix2 b j)
      = result (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (ix2 b j) := by
  have hj : j.val < 32768 := j.isLt
  have hX : (fun (n : Fin 1024) (d : Fin 512) => V m c main_arg0 (ix3 b n d)) = batch (m ((c.tc : Thread nD τ).loc main_arg0)) b := by
    rw [V_main_arg0]; rfl
  have hE : (fun (d : Fin 512) (k : Fin 64) => V m c main_v8 (ix2 d k))
      = eff (m ((c.tc : Thread nD τ).loc main_arg1)) (m ((c.tc : Thread nD τ).loc main_arg2)) (m ((c.tc : Thread nD τ).loc main_arg5)) :=
    funext fun d => funext fun k => V_v8_apply m c d k
  have hC : (fun (k : Fin 64) (d : Fin 512) => V m c main_v10 (ix2 k d)) = cen (m ((c.tc : Thread nD τ).loc main_arg6)) :=
    funext fun k => funext fun d => V_v10_apply m c k d
  rw [tail_v13,
    shapeCast_apply _ shapeCasts_S64x512x64_S64x32768 (ix2 b j) (ix3 b (⟨j.val / 64, by omega⟩ : Fin 512) (⟨j.val % 64, by omega⟩ : Fin 64))
      (by rw [Shape.rowMajor_val_three, Shape.rowMajor_val_two]; show (b.val * 512 + j.val / 64) * 64 + j.val % 64 = b.val * 32768 + j.val; omega),
    transpose_ix3_021_apply]
  unfold G11 result table
  show vlad (fun n d => V m c main_arg0 (ix3 b n d)) (fun d k => V m c main_v8 (ix2 d k)) (fun k d => V m c main_v10 (ix2 k d))
      (⟨j.val % 64, by omega⟩ : Fin 64) (⟨j.val / 64, by omega⟩ : Fin 512) = _
  rw [hX, hE, hC]

theorem tail_eq (c : Dev nD) :
    (Pipeline.afterTail₀ cfgs (dats m) 0 (V0 m) [hostOps1] c main_v13 : S64x32768.Idx → EReal) = result (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) := by
  funext i
  obtain ⟨b, j, rfl⟩ : ∃ (b : Fin 64) (j : Fin 32768), i = ix2 b j := ⟨i 0, i 1, eq_ix2 i⟩
  exact tail_apply m c b j

/-- THE RUN, read: the result array at the specification's `result` of the arguments, the arguments unchanged. -/
theorem run : θ_run defs (onTc (τ := τ) (main (F := Ideal))) ⟨m, fun _ => 0, ρ⟩ (fun r => ∀ c : Dev nD,
      r.2.mem ((c.tc : Thread nD τ).loc main_v13) = result (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v13 (Pipeline.mem_restRefs_of main_v13 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩) (run_main m ρ)

end Cert.KernelIdeal.Run

end
-- ==== Proof.RefValue.lean ====
/-
  The reference program's result, read index by index, is the NetVLAD specification.

  Each lemma reads one stage of the reference at explicit coordinates and identifies it with one definition of the
  specification: the column scale, the scaled directions, a logit (row `b * 1024 + n` of the flattened product), the
  row's maximum (a fold of `max` from -∞, and the further maximum with -∞ that changes nothing), the exponential, the
  softmax's denominator, the soft assignment, the assigned mass, the weighted sum of the descriptors, the residual, its
  norm within the cluster, the normalised residual, the table flattened with the dimension major and the cluster minor,
  and the norm of the whole table. The one re-indexing law is `sum_flat`: a sum over the flattened index is the double
  sum over the table's two coordinates. Nothing is assumed finite; only the commutative-monoid laws of the extended reals are used.
-/
import proofs.«123267_j36215164240269_2_alg».proof.Proof.Gen.ReferenceIdeal.Read
import proofs.«123267_j36215164240269_2_alg».proof.Proof.Spec

noncomputable section

open scoped BigOperators

namespace Cert.ReferenceIdeal.RefValue

open Cert.ReferenceIdeal Cert.ReferenceIdeal.Gen Cert.ReferenceIdeal.Read Cert.NetVlad
open Idealize.ShloMosaic Idealize.ShloMosaic.TcCoe Idealize.SL.Sem Idealize.ShloMosaic.StableHlo Idealize.ShloMosaic.ValueIdx

/-- A sum over the flattened index `j = d * 64 + k` of a table read at `(k, d) = (j % 64, j / 64)` is the double sum
    over the table's two coordinates. -/
theorem sum_flat {M : Type*} [AddCommMonoid M] (f : Fin 64 → Fin 512 → M) :
    ∑ j : Fin 32768, f ⟨j.val % 64, Nat.mod_lt _ (by decide)⟩ ⟨j.val / 64, by have := j.isLt; omega⟩
      = ∑ k : Fin 64, ∑ d : Fin 512, f k d := by
  calc ∑ j : Fin 32768, f ⟨j.val % 64, Nat.mod_lt _ (by decide)⟩ ⟨j.val / 64, by have := j.isLt; omega⟩
      = ∑ p : Fin 512 × Fin 64, f p.2 p.1 := by
        refine (Fintype.sum_equiv (finProdFinEquiv : Fin 512 × Fin 64 ≃ Fin (512 * 64)) (fun p => f p.2 p.1) _ ?_).symm
        rintro ⟨d, k⟩
        have hk := k.isLt
        have hd := d.isLt
        have e1 : k = ⟨(k.val + 64 * d.val) % 64, Nat.mod_lt _ (by decide)⟩ := Fin.ext (by show k.val = (k.val + 64 * d.val) % 64; omega)
        have e2 : d = ⟨(k.val + 64 * d.val) / 64, by omega⟩ := Fin.ext (by show d.val = (k.val + 64 * d.val) / 64; omega)
        show f k d = f ⟨(k.val + 64 * d.val) % 64, _⟩ ⟨(k.val + 64 * d.val) / 64, _⟩
        rw [← e1, ← e2]
    _ = ∑ d : Fin 512, ∑ k : Fin 64, f k d := Fintype.sum_prod_type _
    _ = _ := Finset.sum_comm

section
variable (x0 : (⟨S64x1024x512, .f32⟩ : BufTy).Contents (Elt Ideal)) (x1 : (⟨S512x80, .f32⟩ : BufTy).Contents (Elt Ideal))
  (x2 x5 : (⟨S80, .f32⟩ : BufTy).Contents (Elt Ideal)) (x6 : (⟨S1x512x64, .f32⟩ : BufTy).Contents (Elt Ideal))

/-- Row `b * 1024 + n` of the descriptors flattened to 65536 rows. -/
abbrev row (b : Fin 64) (n : Fin 1024) : Fin 65536 := ⟨b.val * 1024 + n.val, by have := b.isLt; have := n.isLt; omega⟩

/-- The column scale: weight over the square root of variance plus epsilon. -/
theorem scale_eq (k : Fin 80) : val_main_v3 (F := Ideal) x2 x5 (ix1 k) = scale x2 x5 k := by
  rw [val_main_v3_apply, val_main_v2_apply, val_main_v1_apply, val_main_v0_apply, val_main_cst_apply]
  rfl

/-- The scaled cluster directions, all 80 columns. -/
theorem dir_eq (d : Fin 512) (k : Fin 80) :
    val_main_v7 (F := Ideal) x1 x2 x5 (ix2 d k) = x1 (ix2 d k) * scale x2 x5 k := by
  rw [val_main_v7_apply, val_main_v6_apply, val_main_v5_apply]
  have e : idx_main_v5 (idx_main_v6 (ix2 d k)) = ix1 k := funext fun a => by match a with | ⟨0, _⟩ => rfl
  rw [e, scale_eq]
  rfl

/-- A logit: the flattened row `b * 1024 + n` of the product, at one of the first 64 columns. -/
theorem logit_eq (b : Fin 64) (n : Fin 1024) (k : Fin 64) :
    val_main_v9 (F := Ideal) x0 x1 x2 x5 (ix2 (row b n) k) = logit (batch x0 b) (eff x1 x2 x5) n k := by
  rw [val_main_v9_apply, val_main_v8_apply]
  unfold logit
  refine Finset.sum_congr rfl fun d _ => ?_
  rw [val_main_v4_apply]
  have hb := b.isLt
  have hn := n.isLt
  have hd := d.isLt
  have el : idx_main_v4 (lidx_main_v8 (idx_main_v9 (ix2 (row b n) k)) d) = ix3 b n d := funext fun a => Fin.ext (by
    match a with
    | ⟨0, _⟩ => show ((b.val * 1024 + n.val) * 512 + d.val) / 524288 = b.val; omega
    | ⟨1, _⟩ => show ((b.val * 1024 + n.val) * 512 + d.val) / 512 % 1024 = n.val; omega
    | ⟨2, _⟩ => show ((b.val * 1024 + n.val) * 512 + d.val) % 512 = d.val; omega)
  have er : ridx_main_v8 (idx_main_v9 (ix2 (row b n) k)) d = ix2 d (Fin.castLE (by decide : 64 ≤ 80) k) := funext fun a => by
    match a with
    | ⟨0, _⟩ => rfl
    | ⟨1, _⟩ => rfl
  rw [el, er, dir_eq]
  rfl

/-- The reference's maximum-reduction over the 64 columns, read as the fold of `max` from the word of -∞. -/
theorem fold_eq (b : Fin 64) (n : Fin 1024) :
    val_main_v10 (F := Ideal) x0 x1 x2 x5 (ix1 (row b n)) = rowMax (batch x0 b) (eff x1 x2 x5) n := by
  have h : Shape.Reduces S65536x64 [1] S65536 := by decide
  have key : ∀ k : Fin 64, val_main_v9 (F := Ideal) x0 x1 x2 x5 (h.lift (ix1 (row b n)) k)
      = logit (batch x0 b) (eff x1 x2 x5) n k := fun k => by
    have e : h.lift (ix1 (row b n)) k = ix2 (row b n) k :=
      funext fun a => Fin.ext (by match a with | ⟨0, _⟩ => rfl | ⟨1, _⟩ => rfl)
    rw [e, logit_eq]
  unfold val_main_v10
  rw [Host.reduce_eq_fold_single FloatOps.maximumf _ _ reducesTo_S65536x64_S65536_d1 h h_S_ (ix1 (row b n))]
  unfold rowMax negInf
  exact Finset.fold_congr fun k _ => key k

/-- The maximum with -∞ again changes nothing: a fold of `max` from a value is at least that value. -/
theorem rowMax_eq (b : Fin 64) (n : Fin 1024) :
    val_main_v12 (F := Ideal) x0 x1 x2 x5 (ix1 (row b n)) = rowMax (batch x0 b) (eff x1 x2 x5) n := by
  rw [val_main_v12_apply, val_main_v11_apply, val_main_cst_1_apply, fold_eq]
  unfold rowMax negInf
  exact max_eq_right ((Finset.le_fold_max _).mpr (Or.inl le_rfl))

/-- The exponential of a logit less its row's maximum. -/
theorem expo_eq (b : Fin 64) (n : Fin 1024) (k : Fin 64) :
    val_main_v16 (F := Ideal) x0 x1 x2 x5 (ix2 (row b n) k) = expo (batch x0 b) (eff x1 x2 x5) n k := by
  rw [val_main_v16_apply, val_main_v15_apply, val_main_v14_apply, val_main_v13_apply]
  have e : idx_main_v13 (idx_main_v14 (ix2 (row b n) k)) = ix1 (row b n) := funext fun a => by match a with | ⟨0, _⟩ => rfl
  rw [e, logit_eq, rowMax_eq]
  rfl

/-- The softmax's denominator: the reference's sum starts from the zero word. -/
theorem rowSum_eq (b : Fin 64) (n : Fin 1024) :
    val_main_v17 (F := Ideal) x0 x1 x2 x5 (ix1 (row b n)) = rowSum (batch x0 b) (eff x1 x2 x5) n := by
  rw [val_main_v17_apply, val_main_cst_2_apply, Ideal.ofBits_def, Ideal.ofBits_zero_f32, zero_add]
  unfold rowSum
  refine Finset.sum_congr rfl fun k _ => ?_
  have e : idx_main_v17 (ix1 (row b n)) k = ix2 (row b n) k := funext fun a => by match a with | ⟨0, _⟩ => rfl | ⟨1, _⟩ => rfl
  rw [e, expo_eq]

/-- The soft assignment, in the flattened rows. -/
theorem assign_flat_eq (b : Fin 64) (n : Fin 1024) (k : Fin 64) :
    val_main_v20 (F := Ideal) x0 x1 x2 x5 (ix2 (row b n) k) = assign (batch x0 b) (eff x1 x2 x5) n k := by
  rw [val_main_v20_apply, val_main_v19_apply, val_main_v18_apply]
  have e : idx_main_v18 (idx_main_v19 (ix2 (row b n) k)) = ix1 (row b n) := funext fun a => by match a with | ⟨0, _⟩ => rfl
  rw [e, expo_eq, rowSum_eq]
  rfl

/-- The soft assignment, per batch. -/
theorem assign_eq (b : Fin 64) (n : Fin 1024) (k : Fin 64) :
    val_main_v21 (F := Ideal) x0 x1 x2 x5 (ix3 b n k) = assign (batch x0 b) (eff x1 x2 x5) n k := by
  rw [val_main_v21_apply]
  have hb := b.isLt
  have hn := n.isLt
  have hk := k.isLt
  have e : idx_main_v21 (ix3 b n k) = ix2 (row b n) k := funext fun a => Fin.ext (by
    match a with
    | ⟨0, _⟩ => show ((b.val * 1024 + n.val) * 64 + k.val) / 64 = b.val * 1024 + n.val; omega
    | ⟨1, _⟩ => show ((b.val * 1024 + n.val) * 64 + k.val) % 64 = k.val; omega)
  rw [e, assign_flat_eq]

/-- The mass assigned to a cluster. -/
theorem mass_eq (b : Fin 64) (k : Fin 64) :
    val_main_v22 (F := Ideal) x0 x1 x2 x5 (ix2 b k) = mass (batch x0 b) (eff x1 x2 x5) k := by
  rw [val_main_v22_apply, val_main_cst_3_apply, Ideal.ofBits_def, Ideal.ofBits_zero_f32, zero_add]
  unfold mass
  refine Finset.sum_congr rfl fun n _ => ?_
  have e : idx_main_v22 (ix2 b k) n = ix3 b n k := funext fun a => by match a with | ⟨0, _⟩ => rfl | ⟨1, _⟩ => rfl | ⟨2, _⟩ => rfl
  rw [e, assign_eq]

/-- The assignment-weighted sum of the descriptors; the product's factors commute. -/
theorem gathered_eq (b : Fin 64) (d : Fin 512) (k : Fin 64) :
    val_main_v23 (F := Ideal) x0 x1 x2 x5 (ix3 b d k) = gathered (batch x0 b) (eff x1 x2 x5) k d := by
  rw [val_main_v23_apply]
  unfold gathered
  refine Finset.sum_congr rfl fun n _ => ?_
  have el : lidx_main_v23 (ix3 b d k) n = ix3 b n d := funext fun a => by match a with | ⟨0, _⟩ => rfl | ⟨1, _⟩ => rfl | ⟨2, _⟩ => rfl
  have er : ridx_main_v23 (ix3 b d k) n = ix3 b n k := funext fun a => by match a with | ⟨0, _⟩ => rfl | ⟨1, _⟩ => rfl | ⟨2, _⟩ => rfl
  rw [el, er, assign_eq, mul_comm]
  rfl

/-- The residual to the cluster's centre. -/
theorem resid_eq (b : Fin 64) (d : Fin 512) (k : Fin 64) :
    val_main_v30 (F := Ideal) x0 x1 x2 x5 x6 (ix3 b d k) = resid (batch x0 b) (eff x1 x2 x5) (cen x6) k d := by
  rw [val_main_v30_apply, val_main_v29_apply, val_main_v27_apply, val_main_v24_apply, val_main_v28_apply, val_main_v26_apply,
    val_main_v25_apply]
  have hd := d.isLt
  have hk := k.isLt
  have e1 : idx_main_v24 (idx_main_v27 (ix3 b d k)) = ix2 b k := funext fun a => by match a with | ⟨0, _⟩ => rfl | ⟨1, _⟩ => rfl
  have e2 : idx_main_v25 (idx_main_v26 (idx_main_v28 (ix3 b d k))) = ix3 (0 : Fin 1) d k := funext fun a => Fin.ext (by
    match a with
    | ⟨0, _⟩ => rfl
    | ⟨1, _⟩ => show (d.val * 64 + k.val) / 64 % 512 = d.val; omega
    | ⟨2, _⟩ => show (d.val * 64 + k.val) % 64 = k.val; omega)
  rw [e1, e2, mass_eq, gathered_eq]
  rfl

/-- A cluster's residual norm, floored. -/
theorem normD_eq (b : Fin 64) (k : Fin 64) :
    val_main_v36 (F := Ideal) x0 x1 x2 x5 x6 (ix3 b (0 : Fin 1) k) = normD (batch x0 b) (eff x1 x2 x5) (cen x6) k := by
  rw [val_main_v36_apply, val_main_v35_apply, val_main_cst_5_apply, val_main_v34_apply, val_main_v33_apply, val_main_v32_apply,
    val_main_cst_4_apply, Ideal.ofBits_def, Ideal.ofBits_zero_f32, zero_add]
  have es : ∑ d : Fin 512, val_main_v31 (F := Ideal) x0 x1 x2 x5 x6 (idx_main_v32 (idx_main_v33 (ix3 b (0 : Fin 1) k)) d)
      = ∑ d : Fin 512, resid (batch x0 b) (eff x1 x2 x5) (cen x6) k d * resid (batch x0 b) (eff x1 x2 x5) (cen x6) k d := by
    refine Finset.sum_congr rfl fun d _ => ?_
    have e : idx_main_v32 (idx_main_v33 (ix3 b (0 : Fin 1) k)) d = ix3 b d k :=
      funext fun a => by match a with | ⟨0, _⟩ => rfl | ⟨1, _⟩ => rfl | ⟨2, _⟩ => rfl
    rw [e, val_main_v31_apply, resid_eq]
    rfl
  rw [es]
  rfl

/-- The residual normalised within its cluster. -/
theorem intra_eq (b : Fin 64) (d : Fin 512) (k : Fin 64) :
    val_main_v38 (F := Ideal) x0 x1 x2 x5 x6 (ix3 b d k) = intra (batch x0 b) (eff x1 x2 x5) (cen x6) k d := by
  rw [val_main_v38_apply, val_main_v37_apply]
  have e : idx_main_v37 (ix3 b d k) = ix3 b (0 : Fin 1) k := funext fun a => by match a with | ⟨0, _⟩ => rfl | ⟨1, _⟩ => rfl | ⟨2, _⟩ => rfl
  rw [e, resid_eq, normD_eq]
  rfl

/-- The table flattened: entry `j` of row `b` is cluster `j % 64`, dimension `j / 64`. -/
theorem flat_eq (b : Fin 64) (j : Fin 32768) :
    val_main_v39 (F := Ideal) x0 x1 x2 x5 x6 (ix2 b j)
      = intra (batch x0 b) (eff x1 x2 x5) (cen x6) ⟨j.val % 64, Nat.mod_lt _ (by decide)⟩ ⟨j.val / 64, by have := j.isLt; omega⟩ := by
  rw [val_main_v39_apply]
  have hb := b.isLt
  have hj := j.isLt
  have e : idx_main_v39 (ix2 b j) = ix3 b (⟨j.val / 64, by omega⟩ : Fin 512) (⟨j.val % 64, Nat.mod_lt _ (by decide)⟩ : Fin 64) :=
    funext fun a => Fin.ext (by
      match a with
      | ⟨0, _⟩ => show (b.val * 32768 + j.val) / 32768 = b.val; omega
      | ⟨1, _⟩ => show (b.val * 32768 + j.val) / 64 % 512 = j.val / 64; omega
      | ⟨2, _⟩ => show (b.val * 32768 + j.val) % 64 = j.val % 64; omega)
  rw [e, intra_eq]

/-- The norm of the whole table, floored: the sum over the flattened index is the double sum. -/
theorem normG_eq (b : Fin 64) :
    val_main_v45 (F := Ideal) x0 x1 x2 x5 x6 (ix2 b (0 : Fin 1)) = normG (batch x0 b) (eff x1 x2 x5) (cen x6) := by
  rw [val_main_v45_apply, val_main_v44_apply, val_main_cst_7_apply, val_main_v43_apply, val_main_v42_apply, val_main_v41_apply,
    val_main_cst_6_apply, Ideal.ofBits_def, Ideal.ofBits_zero_f32, zero_add]
  have es : ∑ j : Fin 32768, val_main_v40 (F := Ideal) x0 x1 x2 x5 x6 (idx_main_v41 (idx_main_v42 (ix2 b (0 : Fin 1))) j)
      = ∑ k : Fin 64, ∑ d : Fin 512, intra (batch x0 b) (eff x1 x2 x5) (cen x6) k d * intra (batch x0 b) (eff x1 x2 x5) (cen x6) k d := by
    rw [← sum_flat fun k d => intra (batch x0 b) (eff x1 x2 x5) (cen x6) k d * intra (batch x0 b) (eff x1 x2 x5) (cen x6) k d]
    refine Finset.sum_congr rfl fun j _ => ?_
    have e : idx_main_v41 (idx_main_v42 (ix2 b (0 : Fin 1))) j = ix2 b j := funext fun a => by match a with | ⟨0, _⟩ => rfl | ⟨1, _⟩ => rfl
    rw [e, val_main_v40_apply, flat_eq]
    rfl
  rw [es]
  rfl

end

/-- The reference's result is the specification's, index by index. -/
theorem ref_eq (x0 : (⟨S64x1024x512, .f32⟩ : BufTy).Contents (Elt Ideal)) (x1 : (⟨S512x80, .f32⟩ : BufTy).Contents (Elt Ideal))
    (x2 x5 : (⟨S80, .f32⟩ : BufTy).Contents (Elt Ideal)) (x6 : (⟨S1x512x64, .f32⟩ : BufTy).Contents (Elt Ideal)) :
    Cert.ReferenceIdeal.Read.val_main_v47 (F := Ideal) x0 x1 x2 x5 x6 = Cert.NetVlad.result x0 x1 x2 x5 x6 := by
  funext i
  obtain ⟨b, j, rfl⟩ : ∃ (b : Fin 64) (j : Fin 32768), i = ix2 b j := ⟨i 0, i 1, eq_ix2 i⟩
  rw [val_main_v47_apply, val_main_v46_apply]
  have e : idx_main_v46 (ix2 b j) = ix2 b (0 : Fin 1) := funext fun a => by match a with | ⟨0, _⟩ => rfl | ⟨1, _⟩ => rfl
  rw [e, flat_eq, normG_eq]
  rfl

end Cert.ReferenceIdeal.RefValue

end
-- ==== Proof.lean ====
/-
  NetVLAD aggregation: a tiled kernel against its array-level reference, equal as extended reals.

  Both programs scale the first 64 of 80 cluster columns by the batch-norm scale w / sqrt(var + eps), take each
  descriptor's logits against them, soften the logits over the 64 clusters (subtracting the row's maximum first), form
  per cluster the assignment-weighted sum of the descriptors less the assigned mass times the cluster's centre, divide
  each cluster's residual by its Euclidean norm floored at a small constant, and divide the whole 64 × 512 table by its
  Euclidean norm floored likewise; the result lists the table with the dimension major and the cluster minor.

  The kernel does this four batches to a grid point, with the table cluster-major, and the host swaps the axes and
  flattens afterwards; the reference works on the flattened batch and on dimension-major tables throughout.  At the exact
  values the two agree index by index: a change of float format is the identity, a matrix product is the sum over the
  contracted coordinate on either side, and the only algebra is the commutativity of the product (the two programs
  multiply assignment and descriptor in opposite orders), that the maximum of −∞ with a maximum folded from −∞ is that
  maximum, and that the sum over the flattened index `d * 64 + k` is the double sum over `k` and `d`.  None of it needs
  the inputs finite: the precondition is not used.

  `Cert.NetVlad` (Spec) states the common value; `Cert.KernelIdeal.Run.run` reads the kernel's run to it (the body's
  arithmetic by stages, the four stores tiling a point's block, the sixteen blocks tiling the output, the host
  operations before and after); `Cert.ReferenceIdeal.RefValue.ref_eq` reads the reference's run to it.
-/
import proofs.«123267_j36215164240269_2_alg».proof.Defs
import proofs.«123267_j36215164240269_2_alg».proof.Proof.Gen.Kernel
import proofs.«123267_j36215164240269_2_alg».proof.Proof.Gen.Kernel.Skeleton
import proofs.«123267_j36215164240269_2_alg».proof.Proof.Gen.Kernel.Launch
import proofs.«123267_j36215164240269_2_alg».proof.Proof.Gen.Kernel.Points
import proofs.«123267_j36215164240269_2_alg».proof.Proof.Gen.Kernel.Frame
import proofs.«123267_j36215164240269_2_alg».proof.Proof.Gen.KernelIdeal
import proofs.«123267_j36215164240269_2_alg».proof.Proof.Gen.KernelIdeal.Skeleton
import proofs.«123267_j36215164240269_2_alg».proof.Proof.Gen.KernelIdeal.Launch
import proofs.«123267_j36215164240269_2_alg».proof.Proof.Gen.KernelIdeal.Points
import proofs.«123267_j36215164240269_2_alg».proof.Proof.Gen.KernelIdeal.Frame
import proofs.«123267_j36215164240269_2_alg».proof.Proof.Gen.ReferenceIdeal
import proofs.«123267_j36215164240269_2_alg».proof.Proof.Gen.ReferenceIdeal.Run
import proofs.«123267_j36215164240269_2_alg».proof.Proof.Gen.ReferenceIdeal.Read
import proofs.«123267_j36215164240269_2_alg».proof.Proof.Gen.Pre_finite_inputs
import proofs.«123267_j36215164240269_2_alg».proof.Proof.KernelRun
import proofs.«123267_j36215164240269_2_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ
/-- So does its idealization. -/
theorem frame_ki : Cert.frame_KernelIdeal := fun m ρ _ => Cert.KernelIdeal.Gen.frame m ρ
/-- The reference's run, with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end at the specification's `result` of arguments that agree. -/
theorem algebraic : Cert.algebraic_KernelIdeal_ReferenceIdeal := by
  intro m ρ m' ρ' _ hagree
  refine ⟨fun c => Cert.NetVlad.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Run.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v47_eq, Cert.ReferenceIdeal.RefValue.ref_eq,
    (hagree c).1, (hagree c).2.1, (hagree c).2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
